-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S800000x64 : Shape := ⟨2, ![800000, 64]⟩
abbrev S800000x2 : Shape := ⟨2, ![800000, 2]⟩
abbrev S128x128 : Shape := ⟨2, ![128, 128]⟩
abbrev S128 : Shape := ⟨1, ![128]⟩
abbrev S64x128 : Shape := ⟨2, ![64, 128]⟩
abbrev S_ : Shape := ⟨0, ![]⟩
abbrev S800000x1 : Shape := ⟨2, ![800000, 1]⟩
abbrev S800000 : Shape := ⟨1, ![800000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  slices_S800000x2_S800000x1_0_0 : S800000x2.Slices ![0, 0] S800000x1
  shapeCasts_S800000x1_S800000 : S800000x1.ShapeCasts S800000
  bcast_S_S800000 : S_.BroadcastsInDim S800000 (![] : Fin 0 → Fin S800000.rank)
  reducesTo_S800000_S_d0 : S800000.ReducesTo [0] S_

variable [Facts]

def fn_part6 {F : FTy → Type} [FloatOps F] (main_arg2 : IVec S800000x2 32) (main_arg14 : FVec F S128 .f32) (main_arg20 : FVec F S128 .f32) (main_v98 : IVec S_ 1) (main_v101 : IVec S_ 1) : IVec S_ 1 :=
  let main_v102 : IVec S_ 1 := andi main_v98 main_v101
  let main_cst_40 : FVec F S_ .f32 := constant S_ .f32 0x00000000#32
  let main_v103 : FVec F S128 .f32 := broadcastInDim S128 ![] bcast_S_S128 main_cst_40
  let main_v104 : IVec S128 1 := cmpf .oge main_arg14 main_v103
  let main_c_41 : IVec S_ 1 := constantI S_ 1 1#1
  let main_v105 : IVec S_ 1 := (fun x v => Host.reduce IntOp.andi x v reducesTo_S128_S_d0 h_S_) main_v104 main_c_41
  let main_v106 : IVec S_ 1 := andi main_v102 main_v105
  let main_cst_42 : FVec F S_ .f32 := constant S_ .f32 0x00000000#32
  let main_v107 : FVec F S128 .f32 := broadcastInDim S128 ![] bcast_S_S128 main_cst_42
  let main_v108 : IVec S128 1 := cmpf .oge main_arg20 main_v107
  let main_c_43 : IVec S_ 1 := constantI S_ 1 1#1
  let main_v109 : IVec S_ 1 := (fun x v => Host.reduce IntOp.andi x v reducesTo_S128_S_d0 h_S_) main_v108 main_c_43
  let main_v110 : IVec S_ 1 := andi main_v106 main_v109
  let main_v111 : IVec S800000x1 32 := (extractStridedSlice S800000x1 ![0, 0] · slices_S800000x2_S800000x1_0_0) main_arg2
  let main_v112 : IVec S800000 32 := shapeCast S800000 main_v111 shapeCasts_S800000x1_S800000
  let main_c_44 : IVec S_ 32 := constantI S_ 32 0#32
  let main_v113 : IVec S800000 32 := broadcastInDim S800000 ![] bcast_S_S800000 main_c_44
  let main_v114 : IVec S800000 1 := cmpi .sge main_v112 main_v113
  let main_c_45 : IVec S_ 1 := constantI S_ 1 1#1
  let main_v115 : IVec S_ 1 := (fun x v => Host.reduce IntOp.andi x v reducesTo_S800000_S_d0 h_S_) main_v114 main_c_45
  let main_v116 : IVec S_ 1 := andi main_v110 main_v115
  main_v116

def fn_part5 {F : FTy → Type} [FloatOps F] (main_arg2 : IVec S800000x2 32) (main_arg8 : FVec F S128 .f32) (main_arg14 : FVec F S128 .f32) (main_arg19 : FVec F S128 .f32) (main_arg20 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg19
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg20
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_cst_38 : FVec F S_ .f32 := constant S_ .f32 0x00000000#32
  let main_v99 : FVec F S128 .f32 := broadcastInDim S128 ![] bcast_S_S128 main_cst_38
  let main_v100 : IVec S128 1 := cmpf .oge main_arg8 main_v99
  let main_c_39 : IVec S_ 1 := constantI S_ 1 1#1
  let main_v101 : IVec S_ 1 := (fun x v => Host.reduce IntOp.andi x v reducesTo_S128_S_d0 h_S_) main_v100 main_c_39
  fn_part6 (F := F) main_arg2 main_arg14 main_arg20 main_v98 main_v101

def fn_part4 {F : FTy → Type} [FloatOps F] (main_arg2 : IVec S800000x2 32) (main_arg8 : FVec F S128 .f32) (main_arg14 : FVec F S128 .f32) (main_arg15 : FVec F S64x128 .f32) (main_arg16 : FVec F S128 .f32) (main_arg17 : FVec F S128 .f32) (main_arg18 : FVec F S128 .f32) (main_arg19 : FVec F S128 .f32) (main_arg20 : FVec F S128 .f32) (main_v63 : IVec S_ 1) (main_v67 : IVec S_ 1) : IVec S_ 1 :=
  let main_v68 : IVec S_ 1 := andi main_v63 main_v67
  let main_v69 : FVec F S64x128 .f32 := Host.absf main_arg15
  let main_cst_26 : FVec F S_ .f32 := constant S_ .f32 0x7F800000#32
  let main_v70 : FVec F S64x128 .f32 := broadcastInDim S64x128 ![] bcast_S_S64x128 main_cst_26
  let main_v71 : IVec S64x128 1 := cmpf .olt main_v69 main_v70
  let main_c_27 : IVec S_ 1 := constantI S_ 1 1#1
  let main_v72 : IVec S_ 1 := (fun x v => Host.reduce IntOp.andi x v reducesTo_S64x128_S_d0_1 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_arg2 main_arg8 main_arg14 main_arg19 main_arg20 main_v83 main_v84 main_cst_32

def fn_part3 {F : FTy → Type} [FloatOps F] (main_arg2 : IVec S800000x2 32) (main_arg8 : FVec F S128 .f32) (main_arg12 : FVec F S128 .f32) (main_arg13 : FVec F S128 .f32) (main_arg14 : FVec F S128 .f32) (main_arg15 : FVec F S64x128 .f32) (main_arg16 : FVec F S128 .f32) (main_arg17 : FVec F S128 .f32) (main_arg18 : FVec F S128 .f32) (main_arg19 : FVec F S128 .f32) (main_arg20 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg2 main_arg8 main_arg14 main_arg15 main_arg16 main_arg17 main_arg18 main_arg19 main_arg20 main_v63 main_v67

def fn_part2 {F : FTy → Type} [FloatOps F] (main_arg2 : IVec S800000x2 32) (main_arg8 : FVec F S128 .f32) (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S64x128 .f32) (main_arg16 : FVec F S128 .f32) (main_arg17 : FVec F S128 .f32) (main_arg18 : FVec F S128 .f32) (main_arg19 : FVec F S128 .f32) (main_arg20 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg2 main_arg8 main_arg12 main_arg13 main_arg14 main_arg15 main_arg16 main_arg17 main_arg18 main_arg19 main_arg20 main_v48 main_v49 main_v50

def fn_part1 {F : FTy → Type} [FloatOps F] (main_arg2 : IVec S800000x2 32) (main_arg5 : FVec F S128 .f32) (main_arg6 : FVec F S128 .f32) (main_arg7 : FVec F S128 .f32) (main_arg8 : FVec F S128 .f32) (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S64x128 .f32) (main_arg16 : FVec F S128 .f32) (main_arg17 : FVec F S128 .f32) (main_arg18 : FVec F S128 .f32) (main_arg19 : FVec F S128 .f32) (main_arg20 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg2 main_arg8 main_arg9 main_arg10 main_arg11 main_arg12 main_arg13 main_arg14 main_arg15 main_arg16 main_arg17 main_arg18 main_arg19 main_arg20 main_v33

def fn {F : FTy → Type} [FloatOps F] (main_arg0 : FVec F S100000x128 .f32) (main_arg1 : FVec F S800000x64 .f32) (main_arg2 : IVec S800000x2 32) (main_arg3 : FVec F S128x128 .f32) (main_arg4 : FVec F S128 .f32) (main_arg5 : FVec F S128 .f32) (main_arg6 : FVec F S128 .f32) (main_arg7 : FVec F S128 .f32) (main_arg8 : FVec F S128 .f32) (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S64x128 .f32) (main_arg16 : FVec F S128 .f32) (main_arg17 : FVec F S128 .f32) (main_arg18 : FVec F S128 .f32) (main_arg19 : FVec F S128 .f32) (main_arg20 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S100000x128 : Shape := ⟨2, ![100000, 128]⟩
abbrev S800000x64 : Shape := ⟨2, ![800000, 64]⟩
abbrev S800000x2 : Shape := ⟨2, ![800000, 2]⟩
abbrev S128x128 : Shape := ⟨2, ![128, 128]⟩
abbrev S128 : Shape := ⟨1, ![128]⟩
abbrev S64x128 : Shape := ⟨2, ![64, 128]⟩
abbrev S_ : Shape := ⟨0, ![]⟩
abbrev S1x128 : Shape := ⟨2, ![1, 128]⟩
abbrev S2000x128 : Shape := ⟨2, ![2000, 128]⟩
abbrev S800000x1 : Shape := ⟨2, ![800000, 1]⟩
abbrev S800000 : Shape := ⟨1, ![800000]⟩
abbrev S800000x128 : Shape := ⟨2, ![800000, 128]⟩
abbrev S8000x128 : Shape := ⟨2, ![8000, 128]⟩
abbrev S8000x64 : Shape := ⟨2, ![8000, 64]⟩

abbrev nBuf : Space → Nat
  | .hbm => 85
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S800000x64, .f32⟩
  | .hbm, ⟨2, _⟩ => ⟨S800000x2, .i32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S64x128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S_, .f32⟩
  | .hbm, ⟨22, _⟩ => ⟨S128, .f32⟩
  | .hbm, ⟨23, _⟩ => ⟨S128, .f32⟩
  | .hbm, ⟨24, _⟩ => ⟨S128, .f32⟩
  | .hbm, ⟨25, _⟩ => ⟨S128, .f32⟩
  | .hbm, ⟨26, _⟩ => ⟨S128, .f32⟩
  | .hbm, ⟨27, _⟩ => ⟨S128, .f32⟩
  | .hbm, ⟨28, _⟩ => ⟨S1x128, .f32⟩
  | .hbm, ⟨29, _⟩ => ⟨S128x128, .f32⟩
  | .hbm, ⟨30, _⟩ => ⟨S128x128, .f32⟩
  | .hbm, ⟨31, _⟩ => ⟨S128, .f32⟩
  | .hbm, ⟨32, _⟩ => ⟨S128, .f32⟩
  | .hbm, ⟨33, _⟩ => ⟨S1x128, .f32⟩
  | .hbm, ⟨34, _⟩ => ⟨S_, .f32⟩
  | .hbm, ⟨35, _⟩ => ⟨S128, .f32⟩
  | .hbm, ⟨36, _⟩ => ⟨S128, .f32⟩
  | .hbm, ⟨37, _⟩ => ⟨S128, .f32⟩
  | .hbm, ⟨38, _⟩ => ⟨S128, .f32⟩
  | .hbm, ⟨39, _⟩ => ⟨S128, .f32⟩
  | .hbm, ⟨40, _⟩ => ⟨S128, .f32⟩
  | .hbm, ⟨41, _⟩ => ⟨S1x128, .f32⟩
  | .hbm, ⟨42, _⟩ => ⟨S128x128, .f32⟩
  | .hbm, ⟨43, _⟩ => ⟨S128x128, .f32⟩
  | .hbm, ⟨44, _⟩ => ⟨S128, .f32⟩
  | .hbm, ⟨45, _⟩ => ⟨S128, .f32⟩
  | .hbm, ⟨46, _⟩ => ⟨S1x128, .f32⟩
  | .hbm, ⟨47, _⟩ => ⟨S_, .f32⟩
  | .hbm, ⟨48, _⟩ => ⟨S128, .f32⟩
  | .hbm, ⟨49, _⟩ => ⟨S128, .f32⟩
  | .hbm, ⟨50, _⟩ => ⟨S128, .f32⟩
  | .hbm, ⟨51, _⟩ => ⟨S128, .f32⟩
  | .hbm, ⟨52, _⟩ => ⟨S128, .f32⟩
  | .hbm, ⟨53, _⟩ => ⟨S128, .f32⟩
  | .hbm, ⟨54, _⟩ => ⟨S1x128, .f32⟩
  | .hbm, ⟨55, _⟩ => ⟨S64x128, .f32⟩
  | .hbm, ⟨56, _⟩ => ⟨S64x128, .f32⟩
  | .hbm, ⟨57, _⟩ => ⟨S128, .f32⟩
  | .hbm, ⟨58, _⟩ => ⟨S128, .f32⟩
  | .hbm, ⟨59, _⟩ => ⟨S1x128, .f32⟩
  | .hbm, ⟨60, _⟩ => ⟨S100000x128, .f32⟩
  | .hbm, ⟨61, _⟩ => ⟨S100000x128, .f32⟩
  | .hbm, ⟨62, _⟩ => ⟨S800000x1, .i32⟩
  | .hbm, ⟨63, _⟩ => ⟨S800000, .i32⟩
  | .hbm, ⟨64, _⟩ => ⟨S_, .i32⟩
  | .hbm, ⟨65, _⟩ => ⟨S800000, .i32⟩
  | .hbm, ⟨66, _⟩ => ⟨S800000, .i1⟩
  | .hbm, ⟨67, _⟩ => ⟨S_, .i32⟩
  | .hbm, ⟨68, _⟩ => ⟨S800000, .i32⟩
  | .hbm, ⟨69, _⟩ => ⟨S800000, .i32⟩
  | .hbm, ⟨70, _⟩ => ⟨S800000, .i32⟩
  | .hbm, ⟨71, _⟩ => ⟨S800000x1, .i32⟩
  | .hbm, ⟨72, _⟩ => ⟨S800000x128, .f32⟩
  | .hbm, ⟨73, _⟩ => ⟨S800000x128, .f32⟩
  | .hbm, ⟨74, _⟩ => ⟨S800000x1, .i32⟩
  | .hbm, ⟨75, _⟩ => ⟨S800000, .i32⟩
  | .hbm, ⟨76, _⟩ => ⟨S_, .i32⟩
  | .hbm, ⟨77, _⟩ => ⟨S800000, .i32⟩
  | .hbm, ⟨78, _⟩ => ⟨S800000, .i1⟩
  | .hbm, ⟨79, _⟩ => ⟨S_, .i32⟩
  | .hbm, ⟨80, _⟩ => ⟨S800000, .i32⟩
  | .hbm, ⟨81, _⟩ => ⟨S800000, .i32⟩
  | .hbm, ⟨82, _⟩ => ⟨S800000, .i32⟩
  | .hbm, ⟨83, _⟩ => ⟨S800000x1, .i32⟩
  | .hbm, ⟨84, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S8000x128, .f32⟩
  | .local _ .vmem, ⟨11, _⟩ => ⟨S8000x128, .f32⟩
  | .local _ .vmem, ⟨12, _⟩ => ⟨S8000x64, .f32⟩
  | .local _ .vmem, ⟨13, _⟩ => ⟨S8000x64, .f32⟩
  | .local _ .vmem, ⟨14, _⟩ => ⟨S64x128, .f32⟩
  | .local _ .vmem, ⟨15, _⟩ => ⟨S1x128, .f32⟩
  | .local _ .vmem, ⟨16, _⟩ => ⟨S8000x128, .f32⟩
  | .local _ .vmem, ⟨17, _⟩ => ⟨S8000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_cst : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst_0 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_1 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36_0 : Ref sig .tc := ⟨.hbm, 60, rfl⟩
abbrev main_v36_1 : Ref sig .tc := ⟨.hbm, 61, rfl⟩
abbrev main_v37 : Ref sig .tc := ⟨.hbm, 62, rfl⟩
abbrev main_v38 : Ref sig .tc := ⟨.hbm, 63, rfl⟩
abbrev main_c : Ref sig .tc := ⟨.hbm, 64, rfl⟩
abbrev main_v39 : Ref sig .tc := ⟨.hbm, 65, rfl⟩
abbrev main_v40 : Ref sig .tc := ⟨.hbm, 66, rfl⟩
abbrev main_c_2 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_c_3 : Ref sig .tc := ⟨.hbm, 76, rfl⟩
abbrev main_v49 : Ref sig .tc := ⟨.hbm, 77, rfl⟩
abbrev main_v50 : Ref sig .tc := ⟨.hbm, 78, rfl⟩
abbrev main_c_4 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S8000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S128 : S_.BroadcastsInDim S128 (![] : Fin 0 → Fin S128.rank)
  bcast_S128_S1x128_1 : S128.BroadcastsInDim S1x128 (![1] : Fin 1 → Fin S1x128.rank)
  bcast_S1x128_S128x128_0_1 : S1x128.BroadcastsInDim S128x128 (![0, 1] : Fin 2 → Fin S128x128.rank)
  shapeCasts_S128_S1x128 : S128.ShapeCasts S1x128
  bcast_S1x128_S64x128_0_1 : S1x128.BroadcastsInDim S64x128 (![0, 1] : Fin 2 → Fin S64x128.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S800000x2_S800000x1_0_1 : S800000x2.Slices ![0, 1] S800000x1
  shapeCasts_S800000x1_S800000 : S800000x1.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S8000x64_S8000x64_0_0 : ∀ a, (![0, 0] : Fin 2 → Nat) a + S8000x64.size a ≤ S8000x64.size a
  h_S8000x64 : 0 < S8000x64.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  broadcasts_S1x128_S8000x128 : S1x128.Broadcasts S8000x128
  slices_S800000x2_S800000x1_0_0 : S800000x2.Slices ![0, 0] S800000x1
  dot_S2000x128_S128x128_S2000x128_1_0_0_1_n_n_wf : DotDims.WF S2000x128 S128x128 S2000x128 [1] [0] [0] [1] [] []
  gather_S100000x128_S800000x1_S800000x128_1_0_n_n_0_1_1128_wf : GatherDims.WF S100000x128 S800000x1 S800000x128 [1] [0] [] [0] [] 1 ![1, 128]
  dot_S8000x64_S64x128_S8000x128_1_0_0_1_n_n_wf : DotDims.WF S8000x64 S64x128 S8000x128 [1] [0] [0] [1] [] []
  scatter_S100000x128_S800000x1_S800000x128_1_0_0_1_wf : ScatterDims.WF S100000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S100000x128.size a
  hwx0_6 : ∀ i : grid0.Coords, EltTy.bits .f32 = 32 ∨ (Rect.block (s := S100000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S800000x128.size a
  hwx1_0 : ∀ i : grid1.Coords, EltTy.bits .f32 = 32 ∨ (Rect.block (s := S800000x128) S8000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x64.size a ≤ S800000x64.size a
  hwx1_1 : ∀ i : grid1.Coords, EltTy.bits .f32 = 32 ∨ (Rect.block (s := S800000x64) S8000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8000x128.size a ≤ S800000x128.size a
  hwx1_4 : ∀ i : grid1.Coords, EltTy.bits .f32 = 32 ∨ (Rect.block (s := S800000x128) S8000x128.size (cc1_transform_4 i) (hinb1_4 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def dot_S8000x64_S64x128_S8000x128_1_0_0_1_n_n : DotDims S8000x64 S64x128 S8000x128 where
  lhsContracting := [1]
  rhsContracting := [0]
  lhsNonContracting := [0]
  rhsNonContracting := [1]
  lhsBatch := []
  rhsBatch := []
  wf := dot_S8000x64_S64x128_S8000x128_1_0_0_1_n_n_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v36_0) S2000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v36_1) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v45) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S8000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S8000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S800000x64 : Shape := ⟨2, ![800000, 64]⟩
abbrev S800000x2 : Shape := ⟨2, ![800000, 2]⟩
abbrev S128x128 : Shape := ⟨2, ![128, 128]⟩
abbrev S128 : Shape := ⟨1, ![128]⟩
abbrev S64x128 : Shape := ⟨2, ![64, 128]⟩
abbrev S1x128 : Shape := ⟨2, ![1, 128]⟩
abbrev S_ : Shape := ⟨0, ![]⟩
abbrev S800000x1 : Shape := ⟨2, ![800000, 1]⟩
abbrev S800000 : Shape := ⟨1, ![800000]⟩
abbrev S800000x128 : Shape := ⟨2, ![800000, 128]⟩

abbrev nBuf : Space → Nat
  | .hbm => 100
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S800000x64, .f32⟩
  | .hbm, ⟨2, _⟩ => ⟨S800000x2, .i32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S64x128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S100000x128, .f32⟩
  | .hbm, ⟨22, _⟩ => ⟨S1x128, .f32⟩
  | .hbm, ⟨23, _⟩ => ⟨S100000x128, .f32⟩
  | .hbm, ⟨24, _⟩ => ⟨S100000x128, .f32⟩
  | .hbm, ⟨25, _⟩ => ⟨S1x128, .f32⟩
  | .hbm, ⟨26, _⟩ => ⟨S100000x128, .f32⟩
  | .hbm, ⟨27, _⟩ => ⟨S100000x128, .f32⟩
  | .hbm, ⟨28, _⟩ => ⟨S_, .f32⟩
  | .hbm, ⟨29, _⟩ => ⟨S128, .f32⟩
  | .hbm, ⟨30, _⟩ => ⟨S128, .f32⟩
  | .hbm, ⟨31, _⟩ => ⟨S128, .f32⟩
  | .hbm, ⟨32, _⟩ => ⟨S1x128, .f32⟩
  | .hbm, ⟨33, _⟩ => ⟨S100000x128, .f32⟩
  | .hbm, ⟨34, _⟩ => ⟨S100000x128, .f32⟩
  | .hbm, ⟨35, _⟩ => ⟨S1x128, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S800000x1, .i32⟩
  | .hbm, ⟨42, _⟩ => ⟨S800000, .i32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .f32⟩
  | .hbm, ⟨52, _⟩ => ⟨S800000x128, .f32⟩
  | .hbm, ⟨53, _⟩ => ⟨S1x128, .f32⟩
  | .hbm, ⟨54, _⟩ => ⟨S800000x128, .f32⟩
  | .hbm, ⟨55, _⟩ => ⟨S800000x128, .f32⟩
  | .hbm, ⟨56, _⟩ => ⟨S1x128, .f32⟩
  | .hbm, ⟨57, _⟩ => ⟨S800000x128, .f32⟩
  | .hbm, ⟨58, _⟩ => ⟨S800000x128, .f32⟩
  | .hbm, ⟨59, _⟩ => ⟨S_, .f32⟩
  | .hbm, ⟨60, _⟩ => ⟨S128, .f32⟩
  | .hbm, ⟨61, _⟩ => ⟨S128, .f32⟩
  | .hbm, ⟨62, _⟩ => ⟨S128, .f32⟩
  | .hbm, ⟨63, _⟩ => ⟨S1x128, .f32⟩
  | .hbm, ⟨64, _⟩ => ⟨S800000x128, .f32⟩
  | .hbm, ⟨65, _⟩ => ⟨S800000x128, .f32⟩
  | .hbm, ⟨66, _⟩ => ⟨S1x128, .f32⟩
  | .hbm, ⟨67, _⟩ => ⟨S800000x128, .f32⟩
  | .hbm, ⟨68, _⟩ => ⟨S800000x128, .f32⟩
  | .hbm, ⟨69, _⟩ => ⟨S1x128, .f32⟩
  | .hbm, ⟨70, _⟩ => ⟨S800000x128, .f32⟩
  | .hbm, ⟨71, _⟩ => ⟨S800000x128, .f32⟩
  | .hbm, ⟨72, _⟩ => ⟨S800000x128, .f32⟩
  | .hbm, ⟨73, _⟩ => ⟨S1x128, .f32⟩
  | .hbm, ⟨74, _⟩ => ⟨S800000x128, .f32⟩
  | .hbm, ⟨75, _⟩ => ⟨S800000x128, .f32⟩
  | .hbm, ⟨76, _⟩ => ⟨S1x128, .f32⟩
  | .hbm, ⟨77, _⟩ => ⟨S800000x128, .f32⟩
  | .hbm, ⟨78, _⟩ => ⟨S800000x128, .f32⟩
  | .hbm, ⟨79, _⟩ => ⟨S_, .f32⟩
  | .hbm, ⟨80, _⟩ => ⟨S128, .f32⟩
  | .hbm, ⟨81, _⟩ => ⟨S128, .f32⟩
  | .hbm, ⟨82, _⟩ => ⟨S128, .f32⟩
  | .hbm, ⟨83, _⟩ => ⟨S1x128, .f32⟩
  | .hbm, ⟨84, _⟩ => ⟨S800000x128, .f32⟩
  | .hbm, ⟨85, _⟩ => ⟨S800000x128, .f32⟩
  | .hbm, ⟨86, _⟩ => ⟨S1x128, .f32⟩
  | .hbm, ⟨87, _⟩ => ⟨S800000x128, .f32⟩
  | .hbm, ⟨88, _⟩ => ⟨S800000x128, .f32⟩
  | .hbm, ⟨89, _⟩ => ⟨S1x128, .f32⟩
  | .hbm, ⟨90, _⟩ => ⟨S800000x128, .f32⟩
  | .hbm, ⟨91, _⟩ => ⟨S800000x128, .f32⟩
  | .hbm, ⟨92, _⟩ => ⟨S800000x128, .f32⟩
  | .hbm, ⟨93, _⟩ => ⟨S800000x1, .i32⟩
  | .hbm, ⟨94, _⟩ => ⟨S800000, .i32⟩
  | .hbm, ⟨95, _⟩ => ⟨S_, .f32⟩
  | .hbm, ⟨96, _⟩ => ⟨S100000x128, .f32⟩
  | .hbm, ⟨97, _⟩ => ⟨S800000x1, .i32⟩
  | .hbm, ⟨98, _⟩ => ⟨S100000x128, .f32⟩
  | .hbm, ⟨99, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c : Ref sig .tc := ⟨.hbm, 43, rfl⟩
abbrev main_v21 : Ref sig .tc := ⟨.hbm, 44, rfl⟩
abbrev main_v22 : Ref sig .tc := ⟨.hbm, 45, rfl⟩
abbrev main_c_0 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_1 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_2 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_3 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  slices_S800000x2_S800000x1_0_1 : S800000x2.Slices ![0, 1] S800000x1
  shapeCasts_S800000x1_S800000 : S800000x1.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  bcast_S1x128_S800000x128_0_1 : S1x128.BroadcastsInDim S800000x128 (![0, 1] : Fin 2 → Fin S800000x128.rank)
  slices_S800000x2_S800000x1_0_0 : S800000x2.Slices ![0, 0] S800000x1
  bcast_S_S100000x128 : S_.BroadcastsInDim S100000x128 (![] : Fin 0 → Fin S100000x128.rank)
  dot_S100000x128_S128x128_S100000x128_1_0_0_1_n_n_wf : DotDims.WF S100000x128 S128x128 S100000x128 [1] [0] [0] [1] [] []
  gather_S100000x128_S800000x1_S800000x128_1_0_n_n_0_1_1128_wf : GatherDims.WF S100000x128 S800000x1 S800000x128 [1] [0] [] [0] [] 1 ![1, 128]
  dot_S800000x128_S128x128_S800000x128_1_0_0_1_n_n_wf : DotDims.WF S800000x128 S128x128 S800000x128 [1] [0] [0] [1] [] []
  dot_S800000x64_S64x128_S800000x128_1_0_0_1_n_n_wf : DotDims.WF S800000x64 S64x128 S800000x128 [1] [0] [0] [1] [] []
  scatter_S100000x128_S800000x1_S800000x128_1_0_0_1_wf : ScatterDims.WF S100000x128 S800000x1 S800000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S800000x64_S64x128_S800000x128_1_0_0_1_n_n : DotDims S800000x64 S64x128 S800000x128 where
  lhsContracting := [1]
  rhsContracting := [0]
  lhsNonContracting := [0]
  rhsNonContracting := [1]
  lhsBatch := []
  rhsBatch := []
  wf := dot_S800000x64_S64x128_S800000x128_1_0_0_1_n_n_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf

class Facts : Prop extends Facts₀ where

variable [Facts]
-- ==== Proof.KernelRun.lean ====
/-
  The idealized kernel's run with its last boundary named. @main is five segments: a stretch of host operations that
  folds each normalisation into its layer's weights, the atom kernel, a stretch that gathers the second layer's rows
  along the bond list, the gate kernel, and the closing scatter-add. Every weakly fair execution terminates without a
  fault and leaves, in every buffer that outlives the program, what the fold of those five segments from the launch
  memory computes; in particular the result buffer holds the fold's value there and each argument array is unchanged.
-/
import proofs.«133874_j61314953118453_2_alg».proof.Proof.KernelIdealFrameP

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and every buffer that outlives the program ends at
    the value the fold of @main's five segments gives it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- The result buffer after the run holds the fold's value there. -/
theorem result_mem : Proc.devRef .tc main_v55 ∈ Pipeline.ucRefs τ sig := mem_uc main_v55 (by decide)

end Cert.KernelIdeal.KRun

end
-- ==== Proof.LibMatmul.lean ====
/-
  A matrix product of an [M, K] matrix by a [K, N] matrix into a zero accumulator, read at an entry at any sizes: entry
  (p, q) is the sum over k of the left operand's (p, k) entry times the right operand's (k, q) entry.
-/
import Idealize.ShloMosaic.PureOps.Ideal.Laws
import Idealize.ShloMosaic.Lib.ValueIdx

noncomputable section

namespace Cert.LibMatmul

open Idealize.ShloMosaic Idealize.ShloMosaic.ValueIdx

/-- The dimension numbers of the plain product — contract the left operand's axis 1 with the right operand's axis 0, no
    batch axes — under any proof of their conditions. -/
abbrev plainDims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

theorem contr_rank : (plainDims M K N wf).contr.rank = 1 := rfl
theorem contr_size : (plainDims M K N wf).contr.size ⟨0, by rw [contr_rank]; exact Nat.one_pos⟩ = K := rfl

/-- The left operand's index at output (p, q) and contraction position k is (p, k). -/
theorem lhsIdx_eq (p : Fin M) (q : Fin N) (k : Fin K) :
    (plainDims M K N wf).lhsIdx (ix2 p q) ((contrEquiv1 (plainDims M K N wf) K (contr_rank wf) (contr_size wf)).symm k) = ix2 p k := by
  funext a
  apply Fin.ext
  match a with
  | ⟨0, _⟩ =>
    show ((plainDims M K N wf).lhsIdx (ix2 p q) _ (0 : Fin 2)).val = p.val
    unfold DotDims.lhsIdx
    simp
    rfl
  | ⟨1, _⟩ =>
    refine ((plainDims M K N wf).lhsIdx_val_of_single (cl := (1 : Fin 2)) rfl _ _).trans ?_
    exact contrEquiv1_symm_val _ K (contr_rank wf) (contr_size wf) k

/-- The right operand's index at output (p, q) and contraction position k is (k, q). -/
theorem rhsIdx_eq (p : Fin M) (q : Fin N) (k : Fin K) :
    (plainDims M K N wf).rhsIdx (ix2 p q) ((contrEquiv1 (plainDims M K N wf) K (contr_rank wf) (contr_size wf)).symm k) = ix2 k q := by
  funext a
  apply Fin.ext
  match a with
  | ⟨0, _⟩ =>
    refine ((plainDims M K N wf).rhsIdx_val_of_single (cr := (0 : Fin 2)) rfl _ _).trans ?_
    exact contrEquiv1_symm_val _ K (contr_rank wf) (contr_size wf) k
  | ⟨1, _⟩ =>
    show ((plainDims M K N wf).rhsIdx (ix2 p q) _ (1 : Fin 2)).val = q.val
    unfold DotDims.rhsIdx
    simp
    rfl

/-- THE PRODUCT READ AT (p, q): the sum over the contracted axis of the operands' entries multiplied. -/
theorem matmul_plain_apply {φ₁ φ₂ : FTy} (prec : Option ContractPrecision)
    (lhs : FVec Ideal ⟨2, ![M, K]⟩ φ₁) (rhs : FVec Ideal ⟨2, ![K, N]⟩ φ₂) (p : Fin M) (q : Fin N) :
    matmul (plainDims M K N wf) prec lhs rhs (constant ⟨2, ![M, N]⟩ .f32 0x00000000#32) (ix2 p q)
      = ∑ k : Fin K, lhs (ix2 p k) * rhs (ix2 k q) := by
  refine (Ideal.matmul_constant_zero_apply (plainDims M K N wf) prec lhs rhs (ix2 p q)).trans ?_
  rw [← Equiv.sum_comp (contrEquiv1 (plainDims M K N wf) K (contr_rank wf) (contr_size wf)).symm]
  refine Finset.sum_congr rfl fun k _ => ?_
  rw [lhsIdx_eq, rhsIdx_eq]

end Cert.LibMatmul

end
-- ==== Proof.LibDenseLayer.lean ====
/-
  The two whole-array functions the kernels compute, over the extended reals. A dense layer with its normalisation folded
  into the weights: entry (P, q) of  layer x w b  is row P of x against column q of w, plus b (0, q). The gate: entry
  (P, q) of  gate n e w b  is n (P, q) times the dense layer of e at (P, q).
-/
import Idealize.ShloMosaic.PureOps.Ideal
import Idealize.ShloMosaic.Lib.ValueIdx

noncomputable section

namespace Cert.Layer

open Idealize.ShloMosaic Idealize.ShloMosaic.ValueIdx

/-- One dense layer: entry (P, q) is Σ_k x (P, k) · w (k, q) + b (0, q). -/
def layer {M K N : Nat} (x : FVec Ideal ⟨2, ![M, K]⟩ .f32) (w : FVec Ideal ⟨2, ![K, N]⟩ .f32) (b : FVec Ideal ⟨2, ![1, N]⟩ .f32) :
    FVec Ideal ⟨2, ![M, N]⟩ .f32 :=
  fun i => (∑ k : Fin K, x (ix2 (n0 := M) (i 0) k) * w (ix2 (n1 := N) k (i 1))) + b (ix2 (n1 := N) (0 : Fin 1) (i 1))

theorem layer_apply {M K N : Nat} (x : FVec Ideal ⟨2, ![M, K]⟩ .f32) (w : FVec Ideal ⟨2, ![K, N]⟩ .f32) (b : FVec Ideal ⟨2, ![1, N]⟩ .f32)
    (P : Fin M) (q : Fin N) : layer x w b (ix2 P q) = (∑ k : Fin K, x (ix2 P k) * w (ix2 k q)) + b (ix2 (0 : Fin 1) q) := rfl

/-- The gate: each entry of n times the dense layer of e at the same entry. -/
def gate {M K N : Nat} (n : FVec Ideal ⟨2, ![M, N]⟩ .f32) (e : FVec Ideal ⟨2, ![M, K]⟩ .f32) (w : FVec Ideal ⟨2, ![K, N]⟩ .f32)
    (b : FVec Ideal ⟨2, ![1, N]⟩ .f32) : FVec Ideal ⟨2, ![M, N]⟩ .f32 :=
  fun i => n i * layer e w b i

theorem gate_apply {M K N : Nat} (n : FVec Ideal ⟨2, ![M, N]⟩ .f32) (e : FVec Ideal ⟨2, ![M, K]⟩ .f32) (w : FVec Ideal ⟨2, ![K, N]⟩ .f32)
    (b : FVec Ideal ⟨2, ![1, N]⟩ .f32) (P : Fin M) (q : Fin N) :
    gate n e w b (ix2 P q) = n (ix2 P q) * ((∑ k : Fin K, e (ix2 P k) * w (ix2 k q)) + b (ix2 (0 : Fin 1) q)) := rfl

end Cert.Layer

end
-- ==== Proof.Payloads.lean ====
/-
  The two kernel bodies' arithmetic, read at one entry of the block a grid point computes, over the extended reals.
  The atom body holds a tile x of 2000 atom rows, two folded weight matrices w1, w2 and two folded bias rows b1, b2. Entry
  (p, q) of its first result is  Σ_k x (p, k) · w1 (k, q) + b1 (0, q)  (the casts to bf16 are the identity here, the
  product runs into a zero accumulator, and the bias row is repeated along the rows); its second result is the same
  expression of the first result's row p with w2, b2. The gate body holds a tile n of 8000 gathered rows, a tile e of
  8000 bond rows, a folded weight matrix w and bias row b; entry (p, q) of its result is
  n (p, q) · (Σ_k e (p, k) · w (k, q) + b (0, q)).
-/
import proofs.«133874_j61314953118453_2_alg».proof.Proof.Gen.KernelIdeal.Skeleton
import proofs.«133874_j61314953118453_2_alg».proof.Proof.LibMatmul
import proofs.«133874_j61314953118453_2_alg».proof.Proof.LibDenseLayer
import Idealize.ShloMosaic.Lib.ValueIdx
import Idealize.ShloMosaic.Lib.ValueLayout
import Idealize.ShloMosaic.Lib.Pipeline.Value

noncomputable section

namespace Cert.KernelIdeal.Payload

open Idealize.ShloMosaic Idealize.ShloMosaic.ValueIdx
open Cert.KernelIdeal Cert.KernelIdeal.Gen
open Cert.Layer (layer layer_apply gate gate_apply)

/-- The atom body's first result at (p, q): row p of the tile against column q of the first folded weights, plus the
    first folded bias at q. -/
theorem atom1_apply (x : Vec Ideal S2000x128 .f32) (w1 : Vec Ideal S128x128 .f32) (b1 : Vec Ideal S1x128 .f32)
    (p : Fin 2000) (q : Fin 128) :
    k0_pay1 (F := Ideal) x w1 b1 (ix2 p q) = (∑ k : Fin 128, x (ix2 p k) * w1 (ix2 k q)) + b1 (ix2 (0 : Fin 1) q) := by
  unfold k0_pay1
  show matmul (F := Ideal) dot_S2000x128_S128x128_S2000x128_1_0_0_1_n_n none (truncf .bf16 x bitsLt_bf16_f32)
        (truncf .bf16 (shapeCast S128x128 w1 shapeCasts_S128x128_S128x128) bitsLt_bf16_f32) (constant S2000x128 .f32 0x00000000#32) (ix2 p q)
      + broadcastTo S2000x128 (shapeCast S1x128 b1 shapeCasts_S1x128_S1x128) broadcasts_S1x128_S2000x128 (ix2 p q) = _
  rw [shapeCast_self, shapeCast_self, broadcastTo_1b_ab_apply]
  exact congrArg (· + b1 (ix2 (0 : Fin 1) q))
    (Cert.LibMatmul.matmul_plain_apply dot_S2000x128_S128x128_S2000x128_1_0_0_1_n_n_wf none
      (truncf .bf16 x bitsLt_bf16_f32) (truncf .bf16 w1 bitsLt_bf16_f32) p q)

/-- The atom body's second result at (p, q): the first result's row p against column q of the second folded weights,
    plus the second folded bias at q. -/
theorem atom2_apply (x : Vec Ideal S2000x128 .f32) (w1 : Vec Ideal S128x128 .f32) (b1 : Vec Ideal S1x128 .f32)
    (w2 : Vec Ideal S128x128 .f32) (b2 : Vec Ideal S1x128 .f32) (p : Fin 2000) (q : Fin 128) :
    k0_pay2 (F := Ideal) x w1 b1 w2 b2 (ix2 p q)
      = (∑ k : Fin 128, k0_pay1 (F := Ideal) x w1 b1 (ix2 p k) * w2 (ix2 k q)) + b2 (ix2 (0 : Fin 1) q) := by
  unfold k0_pay2
  show matmul (F := Ideal) dot_S2000x128_S128x128_S2000x128_1_0_0_1_n_n none (truncf .bf16 (k0_pay1 (F := Ideal) x w1 b1) bitsLt_bf16_f32)
        (truncf .bf16 (shapeCast S128x128 w2 shapeCasts_S128x128_S128x128) bitsLt_bf16_f32) (constant S2000x128 .f32 0x00000000#32) (ix2 p q)
      + broadcastTo S2000x128 (shapeCast S1x128 b2 shapeCasts_S1x128_S1x128) broadcasts_S1x128_S2000x128 (ix2 p q) = _
  rw [shapeCast_self, shapeCast_self, broadcastTo_1b_ab_apply]
  exact congrArg (· + b2 (ix2 (0 : Fin 1) q))
    (Cert.LibMatmul.matmul_plain_apply dot_S2000x128_S128x128_S2000x128_1_0_0_1_n_n_wf none
      (truncf .bf16 (k0_pay1 (F := Ideal) x w1 b1) bitsLt_bf16_f32) (truncf .bf16 w2 bitsLt_bf16_f32) p q)

/-- The gate body's result at (p, q): the gathered entry times the bond row p against column q of the folded weights
    plus the folded bias at q. -/
theorem gate_apply (n : Vec Ideal S8000x128 .f32) (e : Vec Ideal S8000x64 .f32) (w : Vec Ideal S64x128 .f32)
    (b : Vec Ideal S1x128 .f32) (p : Fin 8000) (q : Fin 128) :
    k1_pay1 (F := Ideal) n e w b (ix2 p q)
      = n (ix2 p q) * ((∑ k : Fin 64, e (ix2 p k) * w (ix2 k q)) + b (ix2 (0 : Fin 1) q)) := by
  unfold k1_pay1
  show shapeCast S8000x128 n shapeCasts_S8000x128_S8000x128 (ix2 p q)
      * (matmul (F := Ideal) dot_S8000x64_S64x128_S8000x128_1_0_0_1_n_n none (truncf .bf16 e bitsLt_bf16_f32)
          (truncf .bf16 (shapeCast S64x128 w shapeCasts_S64x128_S64x128) bitsLt_bf16_f32) (constant S8000x128 .f32 0x00000000#32) (ix2 p q)
        + broadcastTo S8000x128 (shapeCast S1x128 b shapeCasts_S1x128_S1x128) broadcasts_S1x128_S8000x128 (ix2 p q)) = _
  rw [shapeCast_self, shapeCast_self, shapeCast_self, broadcastTo_1b_ab_apply]
  exact congrArg (fun s => n (ix2 p q) * (s + b (ix2 (0 : Fin 1) q)))
    (Cert.LibMatmul.matmul_plain_apply dot_S8000x64_S64x128_S8000x128_1_0_0_1_n_n_wf none
      (truncf .bf16 e bitsLt_bf16_f32) (truncf .bf16 w bitsLt_bf16_f32) p q)

/-! ## A block's entries against the whole arrays

Stated over arrays of literal shapes: a tile whose entries are the whole array's entries at the matching global row
computes the whole-array layer's entries at that row. -/

/-- The first atom result on a tile: if local row p of the tile x is global row P of X, and w, b are W, B, then the
    body's entry (p, q) is the whole-array layer's entry (P, q). -/
theorem atom1_block (X : FVec Ideal S100000x128 .f32) (W1 : FVec Ideal S128x128 .f32) (B1 : FVec Ideal S1x128 .f32)
    (x : Vec Ideal S2000x128 .f32) (w1 : Vec Ideal S128x128 .f32) (b1 : Vec Ideal S1x128 .f32)
    (p : Fin 2000) (q : Fin 128) (P : Fin 100000)
    (hx : ∀ k : Fin 128, x (ix2 p k) = X (ix2 P k)) (hw : ∀ k : Fin 128, w1 (ix2 k q) = W1 (ix2 k q))
    (hb : b1 (ix2 (0 : Fin 1) q) = B1 (ix2 (0 : Fin 1) q)) :
    k0_pay1 (F := Ideal) x w1 b1 (ix2 p q) = layer X W1 B1 (ix2 P q) := by
  rw [atom1_apply, layer_apply, hb]
  exact congrArg (· + B1 (ix2 (0 : Fin 1) q)) (Finset.sum_congr rfl fun k _ => by rw [hx k, hw k])

/-- The second atom result on a tile: the same, one layer further. -/
theorem atom2_block (X : FVec Ideal S100000x128 .f32) (W1 : FVec Ideal S128x128 .f32) (B1 : FVec Ideal S1x128 .f32)
    (W2 : FVec Ideal S128x128 .f32) (B2 : FVec Ideal S1x128 .f32)
    (x : Vec Ideal S2000x128 .f32) (w1 : Vec Ideal S128x128 .f32) (b1 : Vec Ideal S1x128 .f32)
    (w2 : Vec Ideal S128x128 .f32) (b2 : Vec Ideal S1x128 .f32)
    (p : Fin 2000) (q : Fin 128) (P : Fin 100000)
    (h1 : ∀ k : Fin 128, k0_pay1 (F := Ideal) x w1 b1 (ix2 p k) = layer X W1 B1 (ix2 P k))
    (hw : ∀ k : Fin 128, w2 (ix2 k q) = W2 (ix2 k q)) (hb : b2 (ix2 (0 : Fin 1) q) = B2 (ix2 (0 : Fin 1) q)) :
    k0_pay2 (F := Ideal) x w1 b1 w2 b2 (ix2 p q) = layer (layer X W1 B1) W2 B2 (ix2 P q) := by
  rw [atom2_apply, layer_apply, hb]
  exact congrArg (· + B2 (ix2 (0 : Fin 1) q)) (Finset.sum_congr rfl fun k _ => by rw [h1 k, hw k])

/-- The gate result on a tile. -/
theorem gate_block (Nn : FVec Ideal S800000x128 .f32) (E : FVec Ideal S800000x64 .f32) (W : FVec Ideal S64x128 .f32)
    (B : FVec Ideal S1x128 .f32)
    (n : Vec Ideal S8000x128 .f32) (e : Vec Ideal S8000x64 .f32) (w : Vec Ideal S64x128 .f32) (b : Vec Ideal S1x128 .f32)
    (p : Fin 8000) (q : Fin 128) (P : Fin 800000)
    (hn : n (ix2 p q) = Nn (ix2 P q)) (he : ∀ k : Fin 64, e (ix2 p k) = E (ix2 P k))
    (hw : ∀ k : Fin 64, w (ix2 k q) = W (ix2 k q)) (hb : b (ix2 (0 : Fin 1) q) = B (ix2 (0 : Fin 1) q)) :
    k1_pay1 (F := Ideal) n e w b (ix2 p q) = gate Nn E W B (ix2 P q) := by
  rw [Payload.gate_apply, Cert.Layer.gate_apply, hn, hb]
  exact congrArg (fun s => Nn (ix2 P q) * (s + B (ix2 (0 : Fin 1) q))) (Finset.sum_congr rfl fun k _ => by rw [he k, hw k])

end Cert.KernelIdeal.Payload

end
-- ==== Proof.RegionAtom.lean ====
/-
  The atom kernel's two result arrays after its fifty grid points, as whole-array functions of the arrays the region
  finds. Grid point t loads rows 2000·t … 2000·t + 1999 of the atom array and, whole, the two folded weight matrices and
  bias rows; it writes rows 2000·t … 2000·t + 1999 of each result. The fifty row tiles cover the 100000 rows, so the first
  result ends as one dense layer of the atom array (entry (P, q) is Σ_k x (P, k) · w1 (k, q) + b1 (0, q)) and the second as
  the same layer, with the second weights and bias, of the first result.
-/
import proofs.«133874_j61314953118453_2_alg».proof.Proof.KernelIdealFrameP
import proofs.«133874_j61314953118453_2_alg».proof.Proof.Payloads

set_option maxRecDepth 16384

noncomputable section

namespace Cert.KernelIdeal.Atom

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.GenP
open Cert.Layer (layer layer_apply)

theorem hz : (![0, 0] : Fin 2 → Nat) = fun _ => 0 := funext fun a => by fin_cases a <;> rfl

/-- The printed index maps over the grid: the atom tile and both results move with the grid point along the rows; the
    weights and biases stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

variable (V : (c : Dev nD) → (b : Ref sig .tc) → Buf (Elt Ideal) ((c : Thread nD τ).loc b))

/-- The first layer's value at local row p of tile t is the whole-array layer at global row P = 2000·t + p. -/
theorem first_at (c : Dev nD) (t : Fin cfg0.N) (p : Fin 2000) (q : Fin 128) (P : Fin 100000) (hP : P.val = t.val * 2000 + p.val) :
    k0_pay1 (F := Ideal) (iblk0 V c 0 t) (iblk0 V c 1 t) (iblk0 V c 2 t) (ix2 p q)
      = layer (V c main_arg0) (V c main_v8) (V c main_v11) (ix2 P q) := by
  obtain ⟨e00, e01, e10, e11, e20, e21, -, -, -, -, -, -, -, -⟩ := idx_facts t
  have h0 : ∀ k : Fin 128, ((cfg0.win 0).blk t).view.emb (ix2 p k) = ix2 P k := fun k => by
    funext a; apply Fin.ext
    match a with
    | ⟨0, _⟩ => show win0_0.index t (0 : Fin 2) * 2000 + 1 * p.val = P.val; omega
    | ⟨1, _⟩ => show win0_0.index t (1 : Fin 2) * 128 + 1 * k.val = k.val; omega
  have h1 : ∀ k : Fin 128, ((cfg0.win 1).blk t).view.emb (ix2 k q) = ix2 k q := fun k => by
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  have h2 : ((cfg0.win 2).blk t).view.emb (ix2 (0 : Fin 1) q) = ix2 (0 : Fin 1) q := by
    funext a; apply Fin.ext
    match a with
    | ⟨0, _⟩ => show win0_2.index t (0 : Fin 2) * 1 + 1 * 0 = 0; omega
    | ⟨1, _⟩ => show win0_2.index t (1 : Fin 2) * 128 + 1 * q.val = q.val; omega
  exact Payload.atom1_block (V c main_arg0) (V c main_v8) (V c main_v11) (iblk0 V c 0 t) (iblk0 V c 1 t) (iblk0 V c 2 t) p q P
    (fun k => congrArg (V c main_arg0) (h0 k)) (fun k => congrArg (V c main_v8) (h1 k)) (congrArg (V c main_v11) h2)

/-- The second layer's value at local row p of tile t is the second whole-array layer, of the first, at row P. -/
theorem second_at (c : Dev nD) (t : Fin cfg0.N) (p : Fin 2000) (q : Fin 128) (P : Fin 100000) (hP : P.val = t.val * 2000 + p.val) :
    k0_pay2 (F := Ideal) (iblk0 V c 0 t) (iblk0 V c 1 t) (iblk0 V c 2 t) (iblk0 V c 3 t) (iblk0 V c 4 t) (ix2 p q)
      = layer (layer (V c main_arg0) (V c main_v8) (V c main_v11)) (V c main_v20) (V c main_v23) (ix2 P q) := by
  obtain ⟨-, -, -, -, -, -, e30, e31, e40, e41, -, -, -, -⟩ := idx_facts t
  have h3 : ∀ k : Fin 128, ((cfg0.win 3).blk t).view.emb (ix2 k q) = ix2 k q := fun k => by
    funext a; apply Fin.ext
    match a with
    | ⟨0, _⟩ => show win0_3.index t (0 : Fin 2) * 128 + 1 * k.val = k.val; omega
    | ⟨1, _⟩ => show win0_3.index t (1 : Fin 2) * 128 + 1 * q.val = q.val; omega
  have h4 : ((cfg0.win 4).blk t).view.emb (ix2 (0 : Fin 1) q) = ix2 (0 : Fin 1) q := by
    funext a; apply Fin.ext
    match a with
    | ⟨0, _⟩ => show win0_4.index t (0 : Fin 2) * 1 + 1 * 0 = 0; omega
    | ⟨1, _⟩ => show win0_4.index t (1 : Fin 2) * 128 + 1 * q.val = q.val; omega
  exact Payload.atom2_block (V c main_arg0) (V c main_v8) (V c main_v11) (V c main_v20) (V c main_v23)
    (iblk0 V c 0 t) (iblk0 V c 1 t) (iblk0 V c 2 t) (iblk0 V c 3 t) (iblk0 V c 4 t) p q P
    (fun k => first_at V c t p k P hP) (fun k => congrArg (V c main_v20) (h3 k)) (congrArg (V c main_v23) h4)

/-- The global index under local index (p, q) of tile t of the first result: row 2000·t + p, column q. -/
theorem emb_first (t : Fin cfg0.N) (p : Fin 2000) (q : Fin 128) :
    ∃ P : Fin 100000, P.val = t.val * 2000 + p.val ∧ ((cfg0.win 5).blk t).view.emb (ix2 p q) = ix2 P q := by
  obtain ⟨-, -, -, -, -, -, -, -, -, -, e50, e51, -, -⟩ := idx_facts t
  have hN : grid0.N = 50 := N_0
  have ht : t.val < grid0.N := t.isLt
  refine ⟨⟨t.val * 2000 + p.val, by have := p.isLt; omega⟩, rfl, ?_⟩
  funext a; apply Fin.ext
  match a with
  | ⟨0, _⟩ => show win0_5.index t (0 : Fin 2) * 2000 + 1 * p.val = t.val * 2000 + p.val; omega
  | ⟨1, _⟩ => show win0_5.index t (1 : Fin 2) * 128 + 1 * q.val = q.val; omega

/-- The same for the second result. -/
theorem emb_second (t : Fin cfg0.N) (p : Fin 2000) (q : Fin 128) :
    ∃ P : Fin 100000, P.val = t.val * 2000 + p.val ∧ ((cfg0.win 6).blk t).view.emb (ix2 p q) = ix2 P q := by
  obtain ⟨-, -, -, -, -, -, -, -, -, -, -, -, e60, e61⟩ := idx_facts t
  have hN : grid0.N = 50 := N_0
  have ht : t.val < grid0.N := t.isLt
  refine ⟨⟨t.val * 2000 + p.val, by have := p.isLt; omega⟩, rfl, ?_⟩
  funext a; apply Fin.ext
  match a with
  | ⟨0, _⟩ => show win0_6.index t (0 : Fin 2) * 2000 + 1 * p.val = t.val * 2000 + p.val; omega
  | ⟨1, _⟩ => show win0_6.index t (1 : Fin 2) * 128 + 1 * q.val = q.val; omega

/-- What grid point t writes back to the first result is tile t of the first layer of the arrays the region finds. -/
theorem flushed_first (c : Dev nD) (t : Fin cfg0.N) :
    (dat0 V c).flushed 5 t = ((cfg0.win 5).blk t).view.read (Elt Ideal) (layer (V c main_arg0) (V c main_v8) (V c main_v11)) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  obtain ⟨P, hP, hemb⟩ := emb_first t p q
  show k0_pay1 (F := Ideal) (iblk0 V c 0 t) (iblk0 V c 1 t) (iblk0 V c 2 t) (ix2 p q)
      = layer (V c main_arg0) (V c main_v8) (V c main_v11) (((cfg0.win 5).blk t).view.emb (ix2 p q))
  rw [hemb]
  exact first_at V c t p q P hP

/-- What grid point t writes back to the second result is tile t of the second layer of the first. -/
theorem flushed_second (c : Dev nD) (t : Fin cfg0.N) :
    (dat0 V c).flushed 6 t = ((cfg0.win 6).blk t).view.read (Elt Ideal)
      (layer (layer (V c main_arg0) (V c main_v8) (V c main_v11)) (V c main_v20) (V c main_v23)) := by
  show (cfg0.win 6).cut (grid0.coords t) ((dat0 V c).after 6 t) = _
  rw [after0_6]
  unfold out0_6
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  obtain ⟨P, hP, hemb⟩ := emb_second t p q
  show k0_pay2 (F := Ideal) (iblk0 V c 0 t) (iblk0 V c 1 t) (iblk0 V c 2 t) (iblk0 V c 3 t) (iblk0 V c 4 t) (ix2 p q)
      = layer (layer (V c main_arg0) (V c main_v8) (V c main_v11)) (V c main_v20) (V c main_v23) (((cfg0.win 6).blk t).view.emb (ix2 p q))
  rw [hemb]
  exact second_at V c t p q P hP

/-- An index is in tile t of a result iff its row is among the tile's 2000 rows (the tile spans every column). -/
theorem mem_tile5 (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v36_0).slice (win0_5.rect t)).set ↔ _
  rw [View.set_slice_whole, Rect.mem_set_unit]
  exact Iff.rfl

theorem mem_tile6 (t : Fin cfg0.N) (i : S100000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v36_1).slice (win0_6.rect t)).set ↔ _
  rw [View.set_slice_whole, Rect.mem_set_unit]
  exact Iff.rfl

/-- The tile that holds row r is tile r / 2000. -/
theorem tile_lt (i : S100000x128.Idx) : (i 0).val / 2000 < cfg0.N := by
  have hN : grid0.N = 50 := N_0
  have hi0 : (i 0).val < 100000 := (i 0).isLt
  show (i 0).val / 2000 < grid0.N
  omega

theorem cover5 (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  refine ⟨⟨(i 0).val / 2000, tile_lt i⟩, flush0_5 _, ?_⟩
  obtain ⟨-, -, -, -, -, -, -, -, -, -, e50, e51, -, -⟩ := idx_facts ⟨(i 0).val / 2000, tile_lt i⟩
  have e50' : win0_5.index ⟨(i 0).val / 2000, tile_lt i⟩ (0 : Fin 2) = (i 0).val / 2000 := e50
  rw [mem_tile5]
  intro a
  match a with
  | ⟨0, _⟩ => show win0_5.index ⟨(i 0).val / 2000, tile_lt i⟩ (0 : Fin 2) * 2000 ≤ (i 0).val ∧ (i 0).val < win0_5.index ⟨(i 0).val / 2000, tile_lt i⟩ (0 : Fin 2) * 2000 + 2000; omega
  | ⟨1, _⟩ => show win0_5.index ⟨(i 0).val / 2000, tile_lt i⟩ (1 : Fin 2) * 128 ≤ (i 1).val ∧ (i 1).val < win0_5.index ⟨(i 0).val / 2000, tile_lt i⟩ (1 : Fin 2) * 128 + 128; omega

theorem cover6 (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  refine ⟨⟨(i 0).val / 2000, tile_lt i⟩, flush0_6 _, ?_⟩
  obtain ⟨-, -, -, -, -, -, -, -, -, -, -, -, e60, e61⟩ := idx_facts ⟨(i 0).val / 2000, tile_lt i⟩
  have e60' : win0_6.index ⟨(i 0).val / 2000, tile_lt i⟩ (0 : Fin 2) = (i 0).val / 2000 := e60
  rw [mem_tile6]
  intro a
  match a with
  | ⟨0, _⟩ => show win0_6.index ⟨(i 0).val / 2000, tile_lt i⟩ (0 : Fin 2) * 2000 ≤ (i 0).val ∧ (i 0).val < win0_6.index ⟨(i 0).val / 2000, tile_lt i⟩ (0 : Fin 2) * 2000 + 2000; omega
  | ⟨1, _⟩ => show win0_6.index ⟨(i 0).val / 2000, tile_lt i⟩ (1 : Fin 2) * 128 ≤ (i 1).val ∧ (i 1).val < win0_6.index ⟨(i 0).val / 2000, tile_lt i⟩ (1 : Fin 2) * 128 + 128; omega

/-- THE FIRST RESULT after the region: the first layer of the arrays the region finds. -/
theorem first_array (c : Dev nD) :
    (dat0 V c).arrAt 5 cfg0.N = layer (V c main_arg0) (V c main_v8) (V c main_v11) :=
  (dat0 V c).arrAt_eq_of_cover 5 _ (fun t _ => flushed_first V c t) cover5

/-- THE SECOND RESULT after the region: the second layer of the first. -/
theorem second_array (c : Dev nD) :
    (dat0 V c).arrAt 6 cfg0.N = layer (layer (V c main_arg0) (V c main_v8) (V c main_v11)) (V c main_v20) (V c main_v23) :=
  (dat0 V c).arrAt_eq_of_cover 6 _ (fun t _ => flushed_second V c t) cover6

end Cert.KernelIdeal.Atom

end
-- ==== Proof.RegionGate.lean ====
/-
  The gate kernel's result array after its hundred grid points, as a whole-array function of the arrays the region
  finds. Grid point t loads rows 8000·t … 8000·t + 7999 of the gathered rows and of the bond rows and, whole, the folded
  weight matrix and bias row; it writes the same rows of the result. The hundred row tiles cover the 800000 rows, so the
  result ends, entry by entry, as the gathered entry times the dense layer of the bond rows.
-/
import proofs.«133874_j61314953118453_2_alg».proof.Proof.RegionAtom

set_option maxRecDepth 16384

noncomputable section

namespace Cert.KernelIdeal.Gate

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.GenP
open Cert.KernelIdeal.Atom (hz)
open Cert.Layer (layer layer_apply gate gate_apply)

/-- The printed index maps over the grid: the gathered tile, the bond tile and the result move with the grid point along
    the rows; the weights and the bias stay at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

/-- The body's value at local row p of tile t is the whole-array gate at global row P = 8000·t + p. -/
theorem gate_at (c : Dev nD) (t : Fin cfg1.N) (p : Fin 8000) (q : Fin 128) (P : Fin 800000) (hP : P.val = t.val * 8000 + p.val) :
    k1_pay1 (F := Ideal) (iblk1 V c 0 t) (iblk1 V c 1 t) (iblk1 V c 2 t) (iblk1 V c 3 t) (ix2 p q)
      = gate (V c main_v45) (V c main_arg1) (V c main_v32) (V c main_v35) (ix2 P q) := by
  obtain ⟨e00, e01, e10, e11, e20, e21, e30, e31, -, -⟩ := idx_facts t
  have h0 : ((cfg1.win 0).blk t).view.emb (ix2 p q) = ix2 P q := by
    funext a; apply Fin.ext
    match a with
    | ⟨0, _⟩ => show win1_0.index t (0 : Fin 2) * 8000 + 1 * p.val = P.val; omega
    | ⟨1, _⟩ => show win1_0.index t (1 : Fin 2) * 128 + 1 * q.val = q.val; omega
  have h1 : ∀ k : Fin 64, ((cfg1.win 1).blk t).view.emb (ix2 p k) = ix2 P k := fun k => by
    funext a; apply Fin.ext
    match a with
    | ⟨0, _⟩ => show win1_1.index t (0 : Fin 2) * 8000 + 1 * p.val = P.val; omega
    | ⟨1, _⟩ => show win1_1.index t (1 : Fin 2) * 64 + 1 * k.val = k.val; omega
  have h2 : ∀ k : Fin 64, ((cfg1.win 2).blk t).view.emb (ix2 k q) = ix2 k q := fun k => by
    funext a; apply Fin.ext
    match a with
    | ⟨0, _⟩ => show win1_2.index t (0 : Fin 2) * 64 + 1 * k.val = k.val; omega
    | ⟨1, _⟩ => show win1_2.index t (1 : Fin 2) * 128 + 1 * q.val = q.val; omega
  have h3 : ((cfg1.win 3).blk t).view.emb (ix2 (0 : Fin 1) q) = ix2 (0 : Fin 1) q := by
    funext a; apply Fin.ext
    match a with
    | ⟨0, _⟩ => show win1_3.index t (0 : Fin 2) * 1 + 1 * 0 = 0; omega
    | ⟨1, _⟩ => show win1_3.index t (1 : Fin 2) * 128 + 1 * q.val = q.val; omega
  exact Payload.gate_block (V c main_v45) (V c main_arg1) (V c main_v32) (V c main_v35)
    (iblk1 V c 0 t) (iblk1 V c 1 t) (iblk1 V c 2 t) (iblk1 V c 3 t) p q P
    (congrArg (V c main_v45) h0) (fun k => congrArg (V c main_arg1) (h1 k)) (fun k => congrArg (V c main_v32) (h2 k)) (congrArg (V c main_v35) h3)

/-- The global index under local index (p, q) of tile t of the result: row 8000·t + p, column q. -/
theorem emb_out (t : Fin cfg1.N) (p : Fin 8000) (q : Fin 128) :
    ∃ P : Fin 800000, P.val = t.val * 8000 + p.val ∧ ((cfg1.win 4).blk t).view.emb (ix2 p q) = ix2 P q := by
  obtain ⟨-, -, -, -, -, -, -, -, e40, e41⟩ := idx_facts t
  have hN : grid1.N = 100 := N_1
  have ht : t.val < grid1.N := t.isLt
  refine ⟨⟨t.val * 8000 + p.val, by have := p.isLt; omega⟩, rfl, ?_⟩
  funext a; apply Fin.ext
  match a with
  | ⟨0, _⟩ => show win1_4.index t (0 : Fin 2) * 8000 + 1 * p.val = t.val * 8000 + p.val; omega
  | ⟨1, _⟩ => show win1_4.index t (1 : Fin 2) * 128 + 1 * q.val = q.val; omega

/-- What grid point t writes back is tile t of the gate of the arrays the region finds. -/
theorem flushed_gate (c : Dev nD) (t : Fin cfg1.N) :
    (dat1 V c).flushed 4 t = ((cfg1.win 4).blk t).view.read (Elt Ideal)
      (gate (V c main_v45) (V c main_arg1) (V c main_v32) (V c main_v35)) := by
  show (cfg1.win 4).cut (grid1.coords t) ((dat1 V c).after 4 t) = _
  rw [after1_4]
  unfold out1_4
  rw [View.canon_unit_zero hz]
  simp only [View.ld_unit_zero (S := S8000x128) hz, View.ld_unit_zero (S := S8000x64) hz, View.ld_unit_zero (S := S64x128) hz,
    View.ld_unit_zero (S := S1x128) hz]
  funext j
  obtain ⟨p, q, rfl⟩ : ∃ (p : Fin 8000) (q : Fin 128), j = ix2 p q := ⟨j 0, j 1, eq_ix2 j⟩
  obtain ⟨P, hP, hemb⟩ := emb_out t p q
  show k1_pay1 (F := Ideal) (iblk1 V c 0 t) (iblk1 V c 1 t) (iblk1 V c 2 t) (iblk1 V c 3 t) (ix2 p q)
      = gate (V c main_v45) (V c main_arg1) (V c main_v32) (V c main_v35) (((cfg1.win 4).blk t).view.emb (ix2 p q))
  rw [hemb]
  exact gate_at V c t p q P hP

/-- An index is in tile t of the result iff its row is among the tile's 8000 rows (the tile spans every column). -/
theorem mem_tile (t : Fin cfg1.N) (i : S800000x128.Idx) :
    i ∈ ((cfg1.win 4).blk t).view.set ↔ ∀ a : Fin 2, win1_4.index t a * S8000x128.size a ≤ (i a).val ∧ (i a).val < win1_4.index t a * S8000x128.size a + S8000x128.size a := by
  show i ∈ ((View.whole main_v46).slice (win1_4.rect t)).set ↔ _
  rw [View.set_slice_whole, Rect.mem_set_unit]
  exact Iff.rfl

/-- The tile that holds row r is tile r / 8000. -/
theorem tile_lt (i : S800000x128.Idx) : (i 0).val / 8000 < cfg1.N := by
  have hN : grid1.N = 100 := N_1
  have hi0 : (i 0).val < 800000 := (i 0).isLt
  show (i 0).val / 8000 < grid1.N
  omega

theorem cover (i : S800000x128.Idx) : ∃ t : Fin cfg1.N, (cfg1.win 4).flush t = true ∧ i ∈ ((cfg1.win 4).blk t).view.set := by
  have hi0 : (i 0).val < 800000 := (i 0).isLt
  have hi1 : (i 1).val < 128 := (i 1).isLt
  refine ⟨⟨(i 0).val / 8000, tile_lt i⟩, flush1_4 _, ?_⟩
  obtain ⟨-, -, -, -, -, -, -, -, e40, e41⟩ := idx_facts ⟨(i 0).val / 8000, tile_lt i⟩
  have e40' : win1_4.index ⟨(i 0).val / 8000, tile_lt i⟩ (0 : Fin 2) = (i 0).val / 8000 := e40
  rw [mem_tile]
  intro a
  match a with
  | ⟨0, _⟩ => show win1_4.index ⟨(i 0).val / 8000, tile_lt i⟩ (0 : Fin 2) * 8000 ≤ (i 0).val ∧ (i 0).val < win1_4.index ⟨(i 0).val / 8000, tile_lt i⟩ (0 : Fin 2) * 8000 + 8000; omega
  | ⟨1, _⟩ => show win1_4.index ⟨(i 0).val / 8000, tile_lt i⟩ (1 : Fin 2) * 128 ≤ (i 1).val ∧ (i 1).val < win1_4.index ⟨(i 0).val / 8000, tile_lt i⟩ (1 : Fin 2) * 128 + 128; omega

/-- THE RESULT after the region: the gate of the arrays the region finds. -/
theorem gate_array (c : Dev nD) :
    (dat1 V c).arrAt 4 cfg1.N = gate (V c main_v45) (V c main_arg1) (V c main_v32) (V c main_v35) :=
  (dat1 V c).arrAt_eq_of_cover 4 _ (fun t _ => flushed_gate V c t) cover

end Cert.KernelIdeal.Gate

end
-- ==== Proof.LibColumn.lean ====
/-
  A column kept beside a matrix, read at an index at any sizes: a vector of length a cast to an [a, 1] column, and an
  [a, 1] column laid along every column of an [a, b] matrix.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a]` array cast to the column `[a, 1]` reads, at `(p, u)`, the operand at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibLayer.lean ====
/-
  The two whole-array functions of one graph-convolution layer, read at an entry at any sizes, over the extended reals:
  the product of an [M, K] matrix by a [K, N] matrix (entry (p, q) is the sum over k of x (p, k) · w (k, q)), and the
  layer's closing step, entry (p, q) ↦ agg (p, q) + h (p, q) · d p + b q, where d weighs the rows and b is added along
  the columns — stated once with d kept as an [n, 1] column and b as a [1, f] row, and once with both as plain vectors.
  Also: the host's dot_general with the plain dimension numbers is the product, and the host's spelling of the closing
  step (two broadcasts each for d and b, a multiply and two adds) is the closing step.
-/
import Idealize.ShloMosaic.PureOps.Ideal.Laws
import Idealize.ShloMosaic.Lib.ValueIdx
import Idealize.ShloMosaic.Lib.ValueLayout
import Idealize.ShloMosaic.Lib.Pipeline.Value
import proofs.«133874_j61314953118453_2_alg».proof.Proof.LibMatmul
import proofs.«133874_j61314953118453_2_alg».proof.Proof.LibColumn

noncomputable section

namespace Cert.Gcn

open Idealize.ShloMosaic Idealize.ShloMosaic.ValueIdx

/-! ## The matrix product -/

/-- The product of an [M, K] matrix by a [K, N] matrix: entry (p, q) is the sum over k of x (p, k) · w (k, q). -/
def prod {M K N : Nat} (x : FVec Ideal ⟨2, ![M, K]⟩ .f32) (w : FVec Ideal ⟨2, ![K, N]⟩ .f32) : FVec Ideal ⟨2, ![M, N]⟩ .f32 :=
  fun i => ∑ k : Fin K, x (ix2 (n0 := M) (i 0) k) * w (ix2 (n1 := N) k (i 1))

theorem prod_apply {M K N : Nat} (x : FVec Ideal ⟨2, ![M, K]⟩ .f32) (w : FVec Ideal ⟨2, ![K, N]⟩ .f32) (p : Fin M) (q : Fin N) :
    prod x w (ix2 p q) = ∑ k : Fin K, x (ix2 p k) * w (ix2 k q) := rfl

/-- The host's dot_general with the plain dimension numbers (contract the left operand's axis 1 with the right operand's
    axis 0) is the product: both are the same sum over the contracted axis. -/
theorem dotGeneral_plain {M K N : Nat} (wf : DotDims.WF ⟨2, ![M, K]⟩ ⟨2, ![K, N]⟩ ⟨2, ![M, N]⟩ [1] [0] [0] [1] [] [])
    (prec : Option ContractPrecision) (x : FVec Ideal ⟨2, ![M, K]⟩ .f32) (w : FVec Ideal ⟨2, ![K, N]⟩ .f32) :
    Host.dotGeneral (F := Ideal) (Cert.LibMatmul.plainDims M K N wf) prec x w = prod x w := by
  funext i
  obtain ⟨p, q, rfl⟩ : ∃ (p : Fin M) (q : Fin N), i = ix2 p q := ⟨i 0, i 1, eq_ix2 i⟩
  refine (Ideal.dotGeneral_apply (Cert.LibMatmul.plainDims M K N wf) prec .single x w (ix2 p q)).trans ?_
  rw [← Equiv.sum_comp (contrEquiv1 (Cert.LibMatmul.plainDims M K N wf) K (Cert.LibMatmul.contr_rank wf) (Cert.LibMatmul.contr_size wf)).symm]
  refine Finset.sum_congr rfl fun k _ => ?_
  rw [Cert.LibMatmul.lhsIdx_eq, Cert.LibMatmul.rhsIdx_eq]
  rfl

/-! ## The closing step of a layer -/

/-- agg + h · d + b with d an [n, 1] column and b a [1, f] row. -/
def closeCols {n f : Nat} (agg h : FVec Ideal ⟨2, ![n, f]⟩ .f32) (d : FVec Ideal ⟨2, ![n, 1]⟩ .f32) (b : FVec Ideal ⟨2, ![1, f]⟩ .f32) :
    FVec Ideal ⟨2, ![n, f]⟩ .f32 :=
  fun i => agg i + h i * d (ix2 (n0 := n) (i 0) (0 : Fin 1)) + b (ix2 (n1 := f) (0 : Fin 1) (i 1))

/-- agg + h · d + b with d a vector over the rows and b a vector over the columns. -/
def close {n f : Nat} (agg h : FVec Ideal ⟨2, ![n, f]⟩ .f32) (d : FVec Ideal ⟨1, ![n]⟩ .f32) (b : FVec Ideal ⟨1, ![f]⟩ .f32) :
    FVec Ideal ⟨2, ![n, f]⟩ .f32 :=
  fun i => agg i + h i * d (ix1 (n := n) (i 0)) + b (ix1 (n := f) (i 1))

/-- The column form at the vectors cast to a column and to a row is the vector form. -/
theorem closeCols_cast {n f : Nat} (agg h : FVec Ideal ⟨2, ![n, f]⟩ .f32) (d : FVec Ideal ⟨1, ![n]⟩ .f32) (b : FVec Ideal ⟨1, ![f]⟩ .f32)
    (hd : (⟨1, ![n]⟩ : Shape).ShapeCasts ⟨2, ![n, 1]⟩) (hb : (⟨1, ![f]⟩ : Shape).ShapeCasts ⟨2, ![1, f]⟩) :
    closeCols agg h (shapeCast ⟨2, ![n, 1]⟩ d hd) (shapeCast ⟨2, ![1, f]⟩ b hb) = close agg h d b := by
  funext i
  obtain ⟨p, q, rfl⟩ : ∃ (p : Fin n) (q : Fin f), i = ix2 p q := ⟨i 0, i 1, eq_ix2 i⟩
  show agg (ix2 p q) + h (ix2 p q) * shapeCast ⟨2, ![n, 1]⟩ d hd (ix2 p (0 : Fin 1)) + shapeCast ⟨2, ![1, f]⟩ b hb (ix2 (0 : Fin 1) q)
    = agg (ix2 p q) + h (ix2 p q) * d (ix1 p) + b (ix1 q)
  rw [Cert.LibColumn.shapeCast_a_a1_apply, shapeCast_a_1a_apply]

/-- The host's spelling: d broadcast to a column and along the columns, b broadcast to a row and along the rows, one
    multiply and two adds, is the vector form. -/
theorem host_close {n f : Nat} (agg h : FVec Ideal ⟨2, ![n, f]⟩ .f32) (d : FVec Ideal ⟨1, ![n]⟩ .f32) (b : FVec Ideal ⟨1, ![f]⟩ .f32)
    (h1 : (⟨1, ![n]⟩ : Shape).BroadcastsInDim ⟨2, ![n, 1]⟩ (![0] : Fin 1 → Fin 2))
    (h2 : (⟨2, ![n, 1]⟩ : Shape).BroadcastsInDim ⟨2, ![n, f]⟩ (![0, 1] : Fin 2 → Fin 2))
    (h3 : (⟨1, ![f]⟩ : Shape).BroadcastsInDim ⟨2, ![1, f]⟩ (![1] : Fin 1 → Fin 2))
    (h4 : (⟨2, ![1, f]⟩ : Shape).BroadcastsInDim ⟨2, ![n, f]⟩ (![0, 1] : Fin 2 → Fin 2)) :
    addf (addf agg (mulf h (broadcastInDim ⟨2, ![n, f]⟩ ![0, 1] h2 (broadcastInDim ⟨2, ![n, 1]⟩ ![0] h1 d))))
      (broadcastInDim ⟨2, ![n, f]⟩ ![0, 1] h4 (broadcastInDim ⟨2, ![1, f]⟩ ![1] h3 b)) = close agg h d b := by
  funext i
  obtain ⟨p, q, rfl⟩ : ∃ (p : Fin n) (q : Fin f), i = ix2 p q := ⟨i 0, i 1, eq_ix2 i⟩
  have e1 : broadcastInDim ⟨2, ![n, f]⟩ ![0, 1] h2 (broadcastInDim ⟨2, ![n, 1]⟩ ![0] h1 d) (ix2 p q) = d (ix1 p) := by
    refine (broadcastInDim_apply _ h2 _ (ix2 p q) (ix2 p (0 : Fin 1)) fun a => ?_).trans
      (broadcastInDim_apply _ h1 d (ix2 p (0 : Fin 1)) (ix1 p) fun a => ?_)
    · match a with
      | ⟨0, _⟩ =>
        show p.val = if n = 1 then 0 else p.val
        split
        · have := p.isLt; omega
        · rfl
      | ⟨1, _⟩ => rfl
    · match a with
      | ⟨0, _⟩ =>
        show p.val = if n = 1 then 0 else p.val
        split
        · have := p.isLt; omega
        · rfl
  have e2 : broadcastInDim ⟨2, ![n, f]⟩ ![0, 1] h4 (broadcastInDim ⟨2, ![1, f]⟩ ![1] h3 b) (ix2 p q) = b (ix1 q) := by
    refine (broadcastInDim_apply _ h4 _ (ix2 p q) (ix2 (0 : Fin 1) q) fun a => ?_).trans
      (broadcastInDim_apply _ h3 b (ix2 (0 : Fin 1) q) (ix1 q) fun a => ?_)
    · match a with
      | ⟨0, _⟩ => rfl
      | ⟨1, _⟩ =>
        show q.val = if f = 1 then 0 else q.val
        split
        · have := q.isLt; omega
        · rfl
    · match a with
      | ⟨0, _⟩ =>
        show q.val = if f = 1 then 0 else q.val
        split
        · have := q.isLt; omega
        · rfl
  show agg (ix2 p q) + h (ix2 p q) * _ + _ = agg (ix2 p q) + h (ix2 p q) * d (ix1 p) + b (ix1 q)
  rw [e1, e2]

/-! ## The clamp below at zero -/

/-- max (v, 0), entry by entry. -/
def clamp {s : Shape} (v : FVec Ideal s .f32) : FVec Ideal s .f32 := fun i => max (v i) (Ideal.ofBits .f32 0x00000000#32)

/-- The host's spelling — the maximum with the zero constant broadcast to the shape — is the clamp. -/
theorem host_clamp {s : Shape} (v : FVec Ideal s .f32) (h0 : (⟨0, ![]⟩ : Shape).BroadcastsInDim s (![] : Fin 0 → Fin s.rank)) :
    maximumf v (broadcastInDim s ![] h0 (constant (F := Ideal) ⟨0, ![]⟩ .f32 0x00000000#32)) = clamp v := by
  funext i
  show max (v i) (broadcastInDim s ![] h0 (constant (F := Ideal) ⟨0, ![]⟩ .f32 0x00000000#32) i) = max (v i) _
  rw [broadcastInDim_apply _ h0 _ i ix0 (fun a => a.elim0)]
  rfl

end Cert.Gcn

end
-- ==== Proof.LibRowBias.lean ====
/-
  A bias added along the rows of a matrix, read at an entry at any sizes over the extended reals: entry (p, q) of the
  result is a (p, q) + b q. The host spells it with two broadcasts (the vector to a [1, f] row, the row along every row of
  the [n, f] matrix) and one add; a vector unit spells the row with a cast [f] -> [1, f] and a broadcast [1, f] -> [n, f].
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibRowBias

open Idealize.ShloMosaic Idealize.ShloMosaic.ValueIdx

/-- a + b along the rows: entry (p, q) is a (p, q) + b q. -/
def rowBias {n f : Nat} (a : FVec Ideal ⟨2, ![n, f]⟩ .f32) (b : FVec Ideal ⟨1, ![f]⟩ .f32) : FVec Ideal ⟨2, ![n, f]⟩ .f32 :=
  fun i => a i + b (ix1 (n := f) (i 1))

theorem rowBias_apply {n f : Nat} (a : FVec Ideal ⟨2, ![n, f]⟩ .f32) (b : FVec Ideal ⟨1, ![f]⟩ .f32) (p : Fin n) (q : Fin f) :
    rowBias a b (ix2 p q) = a (ix2 p q) + b (ix1 q) := rfl

/-- The host's two broadcasts of a vector [f], to the row [1, f] and then along the rows of [n, f], read at (p, q): the
    vector's entry q. -/
theorem host_row_apply {α : Type} {n f : Nat} (b : (⟨1, ![f]⟩ : Shape).Idx → α)
    (h3 : (⟨1, ![f]⟩ : Shape).BroadcastsInDim ⟨2, ![1, f]⟩ (![1] : Fin 1 → Fin 2))
    (h4 : (⟨2, ![1, f]⟩ : Shape).BroadcastsInDim ⟨2, ![n, f]⟩ (![0, 1] : Fin 2 → Fin 2)) (p : Fin n) (q : Fin f) :
    broadcastInDim ⟨2, ![n, f]⟩ ![0, 1] h4 (broadcastInDim ⟨2, ![1, f]⟩ ![1] h3 b) (ix2 p q) = b (ix1 q) := by
  refine (broadcastInDim_apply _ h4 _ (ix2 p q) (ix2 (0 : Fin 1) q) fun a => ?_).trans
    (broadcastInDim_apply _ h3 b (ix2 (0 : Fin 1) q) (ix1 q) fun a => ?_)
  · match a with
    | ⟨0, _⟩ => rfl
    | ⟨1, _⟩ =>
      show q.val = if f = 1 then 0 else q.val
      split
      · have := q.isLt; omega
      · rfl
  · match a with
    | ⟨0, _⟩ =>
      show q.val = if f = 1 then 0 else q.val
      split
      · have := q.isLt; omega
      · rfl

/-- The host's spelling of the bias along the rows is `rowBias`. -/
theorem host_rowBias {n f : Nat} (a : FVec Ideal ⟨2, ![n, f]⟩ .f32) (b : FVec Ideal ⟨1, ![f]⟩ .f32)
    (h3 : (⟨1, ![f]⟩ : Shape).BroadcastsInDim ⟨2, ![1, f]⟩ (![1] : Fin 1 → Fin 2))
    (h4 : (⟨2, ![1, f]⟩ : Shape).BroadcastsInDim ⟨2, ![n, f]⟩ (![0, 1] : Fin 2 → Fin 2)) :
    addf a (broadcastInDim ⟨2, ![n, f]⟩ ![0, 1] h4 (broadcastInDim ⟨2, ![1, f]⟩ ![1] h3 b)) = rowBias a b := by
  funext i
  obtain ⟨p, q, rfl⟩ : ∃ (p : Fin n) (q : Fin f), i = ix2 p q := ⟨i 0, i 1, eq_ix2 i⟩
  show a (ix2 p q) + _ = a (ix2 p q) + b (ix1 q)
  rw [host_row_apply]

end Cert.LibRowBias

end
-- ==== Proof.LibFoldLaw.lean ====
/-
  The fold law of a dense layer followed by an inference batch normalisation, as pure
  mathematics over the extended reals (EReal) and the reals.

  Folded form      y = Σ_k x_k · (W_k · s) + (b · s + (β − μ · s)),   s = γ · r
  Unfolded form    y = (((Σ_k x_k · W_k) + b) − μ) · r · γ + β

  Multiplication does not distribute over addition at ±∞ in EReal, so the two forms agree
  only because every datum is a real number; with real data both sides are the coercion of
  one real number, `bnR`, and the equality is an identity of the real field.  The factor
  r is the reciprocal square root of v + ε with v ≥ 0 real and ε > 0 real, hence real too.
-/
import Idealize.ShloMosaic.PureOps.Ideal
import Mathlib.Algebra.BigOperators.Fin

noncomputable section

namespace Cert.FoldLaw

open Idealize.ShloMosaic
open scoped BigOperators

/-! ### (A) The constant ε -/

/-- The binary32 pattern `0x3A83126F` (the literal `1e-3`): sign `0`, exponent field `117`,
    fraction field `201327`, so it denotes the positive real `(2^23 + 201327) · 2^(117-127-23)
    = 8589935 · 2^(-33)`. -/
theorem eps_val :
    Ideal.ofBits .f32 0x3A83126F#32 = (((8589935 : ℝ) * (2 : ℝ) ^ (-33 : ℤ) : ℝ) : EReal) := by
  simp [Ideal.ofBits, Ideal.ieee, -EReal.coe_mul]

/-- ε denotes a positive real number. -/
theorem eps_pos : ∃ e : ℝ, 0 < e ∧ Ideal.ofBits .f32 0x3A83126F#32 = (e : EReal) :=
  ⟨(8589935 : ℝ) * (2 : ℝ) ^ (-33 : ℤ), by positivity, eps_val⟩

/-! ### (B) The reciprocal square root of a positive real is real -/

/-- For real `v ≥ 0` and real `e > 0`, `rsqrt (v + e)` is the real `(√(v + e))⁻¹`. -/
theorem rsqrt_real (v e : ℝ) (hv : 0 ≤ v) (he : 0 < e) :
    ∃ r : ℝ, Ideal.rsqrt ((v : EReal) + (e : EReal)) = (r : EReal) := by
  have hpos : 0 < v + e := by linarith
  refine ⟨(Real.sqrt (v + e))⁻¹, ?_⟩
  rw [← EReal.coe_add, Ideal.rsqrt_coe, if_neg (not_lt.mpr hpos.le), if_neg hpos.ne']

/-! ### (C) The fold law for real data -/

/-- A finite sum of coerced reals is the coercion of the real sum. -/
theorem coe_sum {ι : Type*} (s : Finset ι) (f : ι → ℝ) :
    (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- The common real value of both forms. -/
def bnR {K : ℕ} (x W : Fin K → ℝ) (b g be mu r : ℝ) : ℝ :=
  (((∑ k, x k * W k) + b) - mu) * r * g + be

/-- In the reals, the scale `g · r` factors out of the folded sum. -/
theorem sum_fold_real {K : ℕ} (x W : Fin K → ℝ) (s : ℝ) :
    (∑ k, x k * (W k * s)) = (∑ k, x k * W k) * s := by
  rw [Finset.sum_mul]
  exact Finset.sum_congr rfl (fun k _ => (mul_assoc (x k) (W k) s).symm)

/-- The folded form is the coercion of `bnR`. -/
theorem folded_eq {K : ℕ} (x W : Fin K → ℝ) (b g be mu r : ℝ) :
    (∑ k : Fin K, (x k : EReal) * ((W k : EReal) * ((g : EReal) * (r : EReal))))
        + ((b : EReal) * ((g : EReal) * (r : EReal))
          + ((be : EReal) - (mu : EReal) * ((g : EReal) * (r : EReal))))
      = ((bnR x W b g be mu r : ℝ) : EReal) := by
  simp only [← EReal.coe_mul]
  rw [coe_sum, ← EReal.coe_sub, ← EReal.coe_add, ← EReal.coe_add, sum_fold_real]
  congr 1
  unfold bnR
  ring

/-- The unfolded form is the coercion of `bnR`. -/
theorem unfolded_eq {K : ℕ} (x W : Fin K → ℝ) (b g be mu r : ℝ) :
    ((((∑ k : Fin K, (x k : EReal) * (W k : EReal)) + (b : EReal)) - (mu : EReal))
        * (r : EReal)) * (g : EReal) + (be : EReal)
      = ((bnR x W b g be mu r : ℝ) : EReal) := by
  simp only [← EReal.coe_mul]
  rw [coe_sum, ← EReal.coe_add, ← EReal.coe_sub, ← EReal.coe_mul, ← EReal.coe_mul,
    ← EReal.coe_add]
  rfl

/-- The fold law: with real data the folded and the unfolded form agree. -/
theorem fold_law {K : ℕ} (x W : Fin K → ℝ) (b g be mu r : ℝ) :
    (∑ k : Fin K, (x k : EReal) * ((W k : EReal) * ((g : EReal) * (r : EReal))))
        + ((b : EReal) * ((g : EReal) * (r : EReal))
          + ((be : EReal) - (mu : EReal) * ((g : EReal) * (r : EReal))))
      = ((((∑ k : Fin K, (x k : EReal) * (W k : EReal)) + (b : EReal)) - (mu : EReal))
        * (r : EReal)) * (g : EReal) + (be : EReal) :=
  (folded_eq x W b g be mu r).trans (unfolded_eq x W b g be mu r).symm

/-! ### (D) The fold law for extended-real data known to be real -/

/-- Both forms, on extended-real data each of which is a real number and with `v ≥ 0`, are
    the coercion of one and the same real number. -/
theorem fold_law_common {K : ℕ} (x W : Fin K → EReal) (b g be mu v : EReal)
    (hx : ∀ k, ∃ a : ℝ, x k = (a : EReal)) (hW : ∀ k, ∃ a : ℝ, W k = (a : EReal))
    (hb : ∃ a : ℝ, b = (a : EReal)) (hg : ∃ a : ℝ, g = (a : EReal))
    (hbe : ∃ a : ℝ, be = (a : EReal)) (hmu : ∃ a : ℝ, mu = (a : EReal))
    (hv : ∃ a : ℝ, v = (a : EReal)) (hv0 : 0 ≤ v) :
    ∃ a : ℝ,
      (∑ k, x k * (W k * (g * Ideal.rsqrt (v + Ideal.ofBits .f32 0x3A83126F#32))))
          + (b * (g * Ideal.rsqrt (v + Ideal.ofBits .f32 0x3A83126F#32))
            + (be - mu * (g * Ideal.rsqrt (v + Ideal.ofBits .f32 0x3A83126F#32))))
        = (a : EReal)
      ∧ ((((∑ k, x k * W k) + b) - mu) * Ideal.rsqrt (v + Ideal.ofBits .f32 0x3A83126F#32))
          * g + be
        = (a : EReal) := by
  choose xr hxr using hx
  choose Wr hWr using hW
  obtain ⟨br, rfl⟩ := hb
  obtain ⟨gr, rfl⟩ := hg
  obtain ⟨ber, rfl⟩ := hbe
  obtain ⟨mur, rfl⟩ := hmu
  obtain ⟨vr, rfl⟩ := hv
  obtain ⟨e, he, hee⟩ := eps_pos
  obtain ⟨r, hr⟩ := rsqrt_real vr e (EReal.coe_nonneg.mp hv0) he
  simp only [hxr, hWr, hee, hr]
  exact ⟨bnR xr Wr br gr ber mur r, folded_eq xr Wr br gr ber mur r,
    unfolded_eq xr Wr br gr ber mur r⟩

/-- The fold law on extended-real data known to be real. -/
theorem fold_law_ereal {K : ℕ} (x W : Fin K → EReal) (b g be mu v : EReal)
    (hx : ∀ k, ∃ a : ℝ, x k = (a : EReal)) (hW : ∀ k, ∃ a : ℝ, W k = (a : EReal))
    (hb : ∃ a : ℝ, b = (a : EReal)) (hg : ∃ a : ℝ, g = (a : EReal))
    (hbe : ∃ a : ℝ, be = (a : EReal)) (hmu : ∃ a : ℝ, mu = (a : EReal))
    (hv : ∃ a : ℝ, v = (a : EReal)) (hv0 : 0 ≤ v) :
    (∑ k, x k * (W k * (g * Ideal.rsqrt (v + Ideal.ofBits .f32 0x3A83126F#32))))
        + (b * (g * Ideal.rsqrt (v + Ideal.ofBits .f32 0x3A83126F#32))
          + (be - mu * (g * Ideal.rsqrt (v + Ideal.ofBits .f32 0x3A83126F#32))))
      = ((((∑ k, x k * W k) + b) - mu) * Ideal.rsqrt (v + Ideal.ofBits .f32 0x3A83126F#32))
          * g + be := by
  obtain ⟨a, h1, h2⟩ := fold_law_common x W b g be mu v hx hW hb hg hbe hmu hv hv0
  exact h1.trans h2.symm

/-- The folded form on real data is a real number. -/
theorem folded_real {K : ℕ} (x W : Fin K → EReal) (b g be mu v : EReal)
    (hx : ∀ k, ∃ a : ℝ, x k = (a : EReal)) (hW : ∀ k, ∃ a : ℝ, W k = (a : EReal))
    (hb : ∃ a : ℝ, b = (a : EReal)) (hg : ∃ a : ℝ, g = (a : EReal))
    (hbe : ∃ a : ℝ, be = (a : EReal)) (hmu : ∃ a : ℝ, mu = (a : EReal))
    (hv : ∃ a : ℝ, v = (a : EReal)) (hv0 : 0 ≤ v) :
    ∃ a : ℝ,
      (∑ k, x k * (W k * (g * Ideal.rsqrt (v + Ideal.ofBits .f32 0x3A83126F#32))))
          + (b * (g * Ideal.rsqrt (v + Ideal.ofBits .f32 0x3A83126F#32))
            + (be - mu * (g * Ideal.rsqrt (v + Ideal.ofBits .f32 0x3A83126F#32))))
        = (a : EReal) := by
  obtain ⟨a, h1, _⟩ := fold_law_common x W b g be mu v hx hW hb hg hbe hmu hv hv0
  exact ⟨a, h1⟩

/-- The unfolded form on real data is a real number. -/
theorem unfolded_real {K : ℕ} (x W : Fin K → EReal) (b g be mu v : EReal)
    (hx : ∀ k, ∃ a : ℝ, x k = (a : EReal)) (hW : ∀ k, ∃ a : ℝ, W k = (a : EReal))
    (hb : ∃ a : ℝ, b = (a : EReal)) (hg : ∃ a : ℝ, g = (a : EReal))
    (hbe : ∃ a : ℝ, be = (a : EReal)) (hmu : ∃ a : ℝ, mu = (a : EReal))
    (hv : ∃ a : ℝ, v = (a : EReal)) (hv0 : 0 ≤ v) :
    ∃ a : ℝ,
      ((((∑ k, x k * W k) + b) - mu) * Ideal.rsqrt (v + Ideal.ofBits .f32 0x3A83126F#32))
          * g + be
        = (a : EReal) := by
  obtain ⟨a, _, h2⟩ := fold_law_common x W b g be mu v hx hW hb hg hbe hmu hv hv0
  exact ⟨a, h2⟩

/-! ### (E) The real numbers are closed under the operations used above

Small closure facts, for meeting either form when its factors arrive in another order or
association: commutativity and associativity of `+` and `*` hold throughout EReal, and these
lemmas carry realness through sums, differences, products and finite sums. -/

theorem real_add {x y : EReal} (hx : ∃ a : ℝ, x = (a : EReal)) (hy : ∃ a : ℝ, y = (a : EReal)) :
    ∃ a : ℝ, x + y = (a : EReal) := by
  obtain ⟨a, rfl⟩ := hx
  obtain ⟨c, rfl⟩ := hy
  exact ⟨a + c, (EReal.coe_add a c).symm⟩

theorem real_sub {x y : EReal} (hx : ∃ a : ℝ, x = (a : EReal)) (hy : ∃ a : ℝ, y = (a : EReal)) :
    ∃ a : ℝ, x - y = (a : EReal) := by
  obtain ⟨a, rfl⟩ := hx
  obtain ⟨c, rfl⟩ := hy
  exact ⟨a - c, (EReal.coe_sub a c).symm⟩

theorem real_mul {x y : EReal} (hx : ∃ a : ℝ, x = (a : EReal)) (hy : ∃ a : ℝ, y = (a : EReal)) :
    ∃ a : ℝ, x * y = (a : EReal) := by
  obtain ⟨a, rfl⟩ := hx
  obtain ⟨c, rfl⟩ := hy
  exact ⟨a * c, (EReal.coe_mul a c).symm⟩

theorem real_sum {ι : Type*} (s : Finset ι) (f : ι → EReal)
    (hf : ∀ k, ∃ a : ℝ, f k = (a : EReal)) : ∃ a : ℝ, (∑ k ∈ s, f k) = (a : EReal) := by
  choose fr hfr using hf
  exact ⟨∑ k ∈ s, fr k, by simp only [hfr]; exact coe_sum s fr⟩

/-- For an extended real `v` that is a real number `≥ 0`, `rsqrt (v + ε)` is a real number. -/
theorem rsqrt_eps_real (v : EReal) (hv : ∃ a : ℝ, v = (a : EReal)) (hv0 : 0 ≤ v) :
    ∃ r : ℝ, Ideal.rsqrt (v + Ideal.ofBits .f32 0x3A83126F#32) = (r : EReal) := by
  obtain ⟨vr, rfl⟩ := hv
  obtain ⟨e, he, hee⟩ := eps_pos
  rw [hee]
  exact rsqrt_real vr e (EReal.coe_nonneg.mp hv0) he

end Cert.FoldLaw

end
-- ==== Proof.LibFoldedNorm.lean ====
/-
  One dense layer followed by an inference batch normalisation, in the two spellings the programs use, read at an entry
  over the extended reals, and the law that joins them.
  With r = rsqrt (v + ε) taken entry by entry, the kernel folds the normalisation into the parameters before the product:
  the weights become  W (k, q) · (γ q · r q)  and the bias row  b q · (γ q · r q) + (β q − μ q · (γ q · r q)),  and the layer is
  Σ_k x (P, k) · W' (k, q) + b' (0, q). The reference normalises after the product:
  (((Σ_k x (P, k) · W (k, q) + b q) − μ q) · r q) · γ q + β q.
  The two differ by distributing γ q · r q over the sum and the bias, which on the extended reals holds when every
  quantity is a real number; that is the case when every input entry is real and v q ≥ 0, since then v q + ε > 0 and r q is
  the real 1 / √(v q + ε).
-/
import Idealize.ShloMosaic.PureOps.Ideal.Laws
import Idealize.ShloMosaic.Lib.ValueIdx
import Idealize.ShloMosaic.Lib.ValueLayout
import Idealize.ShloMosaic.Lib.Pipeline.Value
import proofs.«133874_j61314953118453_2_alg».proof.Proof.LibDenseLayer
import proofs.«133874_j61314953118453_2_alg».proof.Proof.LibLayer
import proofs.«133874_j61314953118453_2_alg».proof.Proof.LibRowBias
import proofs.«133874_j61314953118453_2_alg».proof.Proof.LibFoldLaw

noncomputable section

namespace Cert.LayerForms

open Idealize.ShloMosaic Idealize.ShloMosaic.ValueIdx
open Cert.Layer (layer layer_apply)

variable {M K N : Nat}

/-- The reciprocal standard deviation, entry by entry: rsqrt (v + ε), ε the float 1e-3. -/
def rstd (v : FVec Ideal ⟨1, ![N]⟩ .f32)
    (h0 : (⟨0, ![]⟩ : Shape).BroadcastsInDim ⟨1, ![N]⟩ (![] : Fin 0 → Fin (⟨1, ![N]⟩ : Shape).rank)) : FVec Ideal ⟨1, ![N]⟩ .f32 :=
  Host.rsqrt (addf v (broadcastInDim ⟨1, ![N]⟩ ![] h0 (constant (F := Ideal) ⟨0, ![]⟩ .f32 0x3A83126F#32)))

theorem rstd_apply (v : FVec Ideal ⟨1, ![N]⟩ .f32)
    (h0 : (⟨0, ![]⟩ : Shape).BroadcastsInDim ⟨1, ![N]⟩ (![] : Fin 0 → Fin (⟨1, ![N]⟩ : Shape).rank)) (q : Fin N) :
    rstd v h0 (ix1 q) = Ideal.rsqrt (v (ix1 q) + Ideal.ofBits .f32 0x3A83126F#32) := by
  show Ideal.rsqrt (v (ix1 q) + broadcastInDim ⟨1, ![N]⟩ ![] h0 (constant (F := Ideal) ⟨0, ![]⟩ .f32 0x3A83126F#32) (ix1 q)) = _
  rw [broadcastInDim_apply _ h0 _ (ix1 q) ix0 (fun a => a.elim0)]
  rfl

/-! ## The kernel's spelling: the normalisation folded into the parameters -/

/-- The folded weights: W (k, q) · (γ q · r q). -/
def foldedW (W : FVec Ideal ⟨2, ![K, N]⟩ .f32) (g v : FVec Ideal ⟨1, ![N]⟩ .f32)
    (h0 : (⟨0, ![]⟩ : Shape).BroadcastsInDim ⟨1, ![N]⟩ (![] : Fin 0 → Fin (⟨1, ![N]⟩ : Shape).rank))
    (h1 : (⟨1, ![N]⟩ : Shape).BroadcastsInDim ⟨2, ![1, N]⟩ (![1] : Fin 1 → Fin 2))
    (h2 : (⟨2, ![1, N]⟩ : Shape).BroadcastsInDim ⟨2, ![K, N]⟩ (![0, 1] : Fin 2 → Fin 2)) : FVec Ideal ⟨2, ![K, N]⟩ .f32 :=
  mulf W (broadcastInDim ⟨2, ![K, N]⟩ ![0, 1] h2 (broadcastInDim ⟨2, ![1, N]⟩ ![1] h1 (mulf g (rstd v h0))))

/-- The folded bias row: b q · (γ q · r q) + (β q − μ q · (γ q · r q)). -/
def foldedB (b g be mu v : FVec Ideal ⟨1, ![N]⟩ .f32)
    (h0 : (⟨0, ![]⟩ : Shape).BroadcastsInDim ⟨1, ![N]⟩ (![] : Fin 0 → Fin (⟨1, ![N]⟩ : Shape).rank))
    (hc : (⟨1, ![N]⟩ : Shape).ShapeCasts ⟨2, ![1, N]⟩) : FVec Ideal ⟨2, ![1, N]⟩ .f32 :=
  shapeCast ⟨2, ![1, N]⟩ (addf (mulf b (mulf g (rstd v h0))) (subf be (mulf mu (mulf g (rstd v h0))))) hc

theorem foldedW_apply (W : FVec Ideal ⟨2, ![K, N]⟩ .f32) (g v : FVec Ideal ⟨1, ![N]⟩ .f32)
    (h0 : (⟨0, ![]⟩ : Shape).BroadcastsInDim ⟨1, ![N]⟩ (![] : Fin 0 → Fin (⟨1, ![N]⟩ : Shape).rank))
    (h1 : (⟨1, ![N]⟩ : Shape).BroadcastsInDim ⟨2, ![1, N]⟩ (![1] : Fin 1 → Fin 2))
    (h2 : (⟨2, ![1, N]⟩ : Shape).BroadcastsInDim ⟨2, ![K, N]⟩ (![0, 1] : Fin 2 → Fin 2)) (k : Fin K) (q : Fin N) :
    foldedW W g v h0 h1 h2 (ix2 k q)
      = W (ix2 k q) * (g (ix1 q) * Ideal.rsqrt (v (ix1 q) + Ideal.ofBits .f32 0x3A83126F#32)) := by
  show W (ix2 k q) * broadcastInDim ⟨2, ![K, N]⟩ ![0, 1] h2 (broadcastInDim ⟨2, ![1, N]⟩ ![1] h1 (mulf g (rstd v h0))) (ix2 k q) = _
  rw [Cert.LibRowBias.host_row_apply]
  show W (ix2 k q) * (g (ix1 q) * rstd v h0 (ix1 q)) = _
  rw [rstd_apply]

theorem foldedB_apply (b g be mu v : FVec Ideal ⟨1, ![N]⟩ .f32)
    (h0 : (⟨0, ![]⟩ : Shape).BroadcastsInDim ⟨1, ![N]⟩ (![] : Fin 0 → Fin (⟨1, ![N]⟩ : Shape).rank))
    (hc : (⟨1, ![N]⟩ : Shape).ShapeCasts ⟨2, ![1, N]⟩) (q : Fin N) :
    foldedB b g be mu v h0 hc (ix2 (0 : Fin 1) q)
      = b (ix1 q) * (g (ix1 q) * Ideal.rsqrt (v (ix1 q) + Ideal.ofBits .f32 0x3A83126F#32))
        + (be (ix1 q) - mu (ix1 q) * (g (ix1 q) * Ideal.rsqrt (v (ix1 q) + Ideal.ofBits .f32 0x3A83126F#32))) := by
  unfold foldedB
  rw [shapeCast_a_1a_apply]
  show b (ix1 q) * (g (ix1 q) * rstd v h0 (ix1 q)) + (be (ix1 q) - mu (ix1 q) * (g (ix1 q) * rstd v h0 (ix1 q))) = _
  rw [rstd_apply]

/-! ## The reference's spelling: the normalisation after the product -/

/-- (((x · W + b) − μ) · r) · γ + β, each vector repeated along the rows. -/
def normalised (wf : DotDims.WF ⟨2, ![M, K]⟩ ⟨2, ![K, N]⟩ ⟨2, ![M, N]⟩ [1] [0] [0] [1] [] [])
    (X : FVec Ideal ⟨2, ![M, K]⟩ .f32) (W : FVec Ideal ⟨2, ![K, N]⟩ .f32) (b g be mu v : FVec Ideal ⟨1, ![N]⟩ .f32)
    (h0 : (⟨0, ![]⟩ : Shape).BroadcastsInDim ⟨1, ![N]⟩ (![] : Fin 0 → Fin (⟨1, ![N]⟩ : Shape).rank))
    (h3 : (⟨1, ![N]⟩ : Shape).BroadcastsInDim ⟨2, ![1, N]⟩ (![1] : Fin 1 → Fin 2))
    (h4 : (⟨2, ![1, N]⟩ : Shape).BroadcastsInDim ⟨2, ![M, N]⟩ (![0, 1] : Fin 2 → Fin 2)) : FVec Ideal ⟨2, ![M, N]⟩ .f32 :=
  addf (mulf (mulf (subf (addf (Host.dotGeneral (F := Ideal) (Cert.LibMatmul.plainDims M K N wf) none X W)
      (broadcastInDim ⟨2, ![M, N]⟩ ![0, 1] h4 (broadcastInDim ⟨2, ![1, N]⟩ ![1] h3 b)))
      (broadcastInDim ⟨2, ![M, N]⟩ ![0, 1] h4 (broadcastInDim ⟨2, ![1, N]⟩ ![1] h3 mu)))
      (broadcastInDim ⟨2, ![M, N]⟩ ![0, 1] h4 (broadcastInDim ⟨2, ![1, N]⟩ ![1] h3 (rstd v h0))))
      (broadcastInDim ⟨2, ![M, N]⟩ ![0, 1] h4 (broadcastInDim ⟨2, ![1, N]⟩ ![1] h3 g)))
    (broadcastInDim ⟨2, ![M, N]⟩ ![0, 1] h4 (broadcastInDim ⟨2, ![1, N]⟩ ![1] h3 be))

theorem normalised_apply (wf : DotDims.WF ⟨2, ![M, K]⟩ ⟨2, ![K, N]⟩ ⟨2, ![M, N]⟩ [1] [0] [0] [1] [] [])
    (X : FVec Ideal ⟨2, ![M, K]⟩ .f32) (W : FVec Ideal ⟨2, ![K, N]⟩ .f32) (b g be mu v : FVec Ideal ⟨1, ![N]⟩ .f32)
    (h0 : (⟨0, ![]⟩ : Shape).BroadcastsInDim ⟨1, ![N]⟩ (![] : Fin 0 → Fin (⟨1, ![N]⟩ : Shape).rank))
    (h3 : (⟨1, ![N]⟩ : Shape).BroadcastsInDim ⟨2, ![1, N]⟩ (![1] : Fin 1 → Fin 2))
    (h4 : (⟨2, ![1, N]⟩ : Shape).BroadcastsInDim ⟨2, ![M, N]⟩ (![0, 1] : Fin 2 → Fin 2)) (P : Fin M) (q : Fin N) :
    normalised wf X W b g be mu v h0 h3 h4 (ix2 P q)
      = ((((∑ k : Fin K, X (ix2 P k) * W (ix2 k q)) + b (ix1 q)) - mu (ix1 q))
          * Ideal.rsqrt (v (ix1 q) + Ideal.ofBits .f32 0x3A83126F#32)) * g (ix1 q) + be (ix1 q) := by
  unfold normalised
  rw [Cert.Gcn.dotGeneral_plain]
  show ((((Cert.Gcn.prod X W (ix2 P q)
      + broadcastInDim ⟨2, ![M, N]⟩ ![0, 1] h4 (broadcastInDim ⟨2, ![1, N]⟩ ![1] h3 b) (ix2 P q))
      - broadcastInDim ⟨2, ![M, N]⟩ ![0, 1] h4 (broadcastInDim ⟨2, ![1, N]⟩ ![1] h3 mu) (ix2 P q))
      * broadcastInDim ⟨2, ![M, N]⟩ ![0, 1] h4 (broadcastInDim ⟨2, ![1, N]⟩ ![1] h3 (rstd v h0)) (ix2 P q))
      * broadcastInDim ⟨2, ![M, N]⟩ ![0, 1] h4 (broadcastInDim ⟨2, ![1, N]⟩ ![1] h3 g) (ix2 P q))
      + broadcastInDim ⟨2, ![M, N]⟩ ![0, 1] h4 (broadcastInDim ⟨2, ![1, N]⟩ ![1] h3 be) (ix2 P q) = _
  rw [Cert.Gcn.prod_apply, Cert.LibRowBias.host_row_apply b h3 h4 P q, Cert.LibRowBias.host_row_apply mu h3 h4 P q,
    Cert.LibRowBias.host_row_apply (rstd v h0) h3 h4 P q, Cert.LibRowBias.host_row_apply g h3 h4 P q,
    Cert.LibRowBias.host_row_apply be h3 h4 P q, rstd_apply]

/-! ## The law -/

/-- AT AN ENTRY where every quantity read is a real number and the variance is nonnegative, the folded layer and the
    normalised layer are one real number. -/
theorem folded_eq_normalised (wf : DotDims.WF ⟨2, ![M, K]⟩ ⟨2, ![K, N]⟩ ⟨2, ![M, N]⟩ [1] [0] [0] [1] [] [])
    (X : FVec Ideal ⟨2, ![M, K]⟩ .f32) (W : FVec Ideal ⟨2, ![K, N]⟩ .f32) (b g be mu v : FVec Ideal ⟨1, ![N]⟩ .f32)
    (h0 : (⟨0, ![]⟩ : Shape).BroadcastsInDim ⟨1, ![N]⟩ (![] : Fin 0 → Fin (⟨1, ![N]⟩ : Shape).rank))
    (h1 : (⟨1, ![N]⟩ : Shape).BroadcastsInDim ⟨2, ![1, N]⟩ (![1] : Fin 1 → Fin 2))
    (h2 : (⟨2, ![1, N]⟩ : Shape).BroadcastsInDim ⟨2, ![K, N]⟩ (![0, 1] : Fin 2 → Fin 2))
    (hc : (⟨1, ![N]⟩ : Shape).ShapeCasts ⟨2, ![1, N]⟩)
    (h3 : (⟨1, ![N]⟩ : Shape).BroadcastsInDim ⟨2, ![1, N]⟩ (![1] : Fin 1 → Fin 2))
    (h4 : (⟨2, ![1, N]⟩ : Shape).BroadcastsInDim ⟨2, ![M, N]⟩ (![0, 1] : Fin 2 → Fin 2)) (P : Fin M) (q : Fin N)
    (hX : ∀ k : Fin K, ∃ a : ℝ, X (ix2 P k) = (a : EReal)) (hW : ∀ k : Fin K, ∃ a : ℝ, W (ix2 k q) = (a : EReal))
    (hb : ∃ a : ℝ, b (ix1 q) = (a : EReal)) (hg : ∃ a : ℝ, g (ix1 q) = (a : EReal)) (hbe : ∃ a : ℝ, be (ix1 q) = (a : EReal))
    (hmu : ∃ a : ℝ, mu (ix1 q) = (a : EReal)) (hv : ∃ a : ℝ, v (ix1 q) = (a : EReal)) (hv0 : 0 ≤ v (ix1 q)) :
    ∃ a : ℝ, layer X (foldedW W g v h0 h1 h2) (foldedB b g be mu v h0 hc) (ix2 P q) = (a : EReal)
      ∧ normalised wf X W b g be mu v h0 h3 h4 (ix2 P q) = (a : EReal) := by
  rw [layer_apply, foldedB_apply, normalised_apply]
  simp only [foldedW_apply]
  exact Cert.FoldLaw.fold_law_common (fun k => X (ix2 P k)) (fun k => W (ix2 k q)) (b (ix1 q)) (g (ix1 q)) (be (ix1 q))
    (mu (ix1 q)) (v (ix1 q)) hX hW hb hg hbe hmu hv hv0

end Cert.LayerForms

end
-- ==== Proof.KClosed.lean ====
/-
  The idealized kernel's result as one expression of its argument arrays: each dense layer with its normalisation folded
  into the weights and the bias row; the second layer applied to the first layer's output on every atom row; those rows
  gathered at the bonds' source atoms (a negative index wrapped by the table's length); the gate with the folded bond layer;
  and the gated rows summed into the first layer's output at the bonds' destination atoms (wrapped likewise).
-/
import proofs.«133874_j61314953118453_2_alg».proof.Proof.Gen.KernelIdeal
import proofs.«133874_j61314953118453_2_alg».proof.Proof.LibFoldedNorm

noncomputable section

namespace Cert.KernelIdeal.Closed

open Idealize.ShloMosaic Idealize.ShloMosaic.ValueIdx
open Cert.KernelIdeal Cert.KernelIdeal.Gen
open Cert.Layer (layer gate)
open Cert.LayerForms (foldedW foldedB)

/-- A dense layer of 128 inputs with its normalisation folded into the weights, on the rows of x. -/
def dense {M : Nat} (x : FVec Ideal ⟨2, ![M, 128]⟩ .f32) (W : FVec Ideal S128x128 .f32) (b g be mu v : FVec Ideal S128 .f32) :
    FVec Ideal ⟨2, ![M, 128]⟩ .f32 :=
  layer (M := M) (K := 128) (N := 128) x (foldedW (K := 128) (N := 128) W g v bcast_S_S128 bcast_S128_S1x128_1 bcast_S1x128_S128x128_0_1)
    (foldedB (N := 128) b g be mu v bcast_S_S128 shapeCasts_S128_S1x128)

/-- A column of the index array as start indices, a negative entry wrapped by the table's length. -/
abbrev wrapped (col : IVec S800000 32) : IVec S800000x1 32 :=
  broadcastInDim S800000x1 ![0] bcast_S800000_S800000x1_0
    (select (cmpi .slt col (broadcastInDim S800000 ![] bcast_S_S800000 (constantI S_ 32 0#32)))
      (addi col (broadcastInDim S800000 ![] bcast_S_S800000 (constantI S_ 32 100000#32))) col)

abbrev srcCol (a2 : IVec S800000x2 32) : IVec S800000 32 :=
  shapeCast S800000 (extractStridedSlice S800000x1 ![0, 1] a2 slices_S800000x2_S800000x1_0_1) shapeCasts_S800000x1_S800000
abbrev dstCol (a2 : IVec S800000x2 32) : IVec S800000 32 :=
  shapeCast S800000 (extractStridedSlice S800000x1 ![0, 0] a2 slices_S800000x2_S800000x1_0_0) shapeCasts_S800000x1_S800000

/-- The gated rows: the gathered second-layer rows times the folded bond layer. -/
def gatedRows (a0 : FVec Ideal S100000x128 .f32) (a1 : FVec Ideal S800000x64 .f32) (a2 : IVec S800000x2 32)
    (a3 : FVec Ideal S128x128 .f32) (a4 a5 a6 a7 a8 : FVec Ideal S128 .f32)
    (a9 : FVec Ideal S128x128 .f32) (a10 a11 a12 a13 a14 : FVec Ideal S128 .f32)
    (a15 : FVec Ideal S64x128 .f32) (a16 a17 a18 a19 a20 : FVec Ideal S128 .f32) : FVec Ideal S800000x128 .f32 :=
  gate (M := 800000) (K := 64) (N := 128)
    (Host.gather gather_S100000x128_S800000x1_S800000x128_1_0_n_n_0_1_1128
      (dense (dense a0 a3 a4 a5 a6 a7 a8) a9 a10 a11 a12 a13 a14) (wrapped (srcCol a2)))
    a1 (foldedW (K := 64) (N := 128) a15 a17 a20 bcast_S_S128 bcast_S128_S1x128_1 bcast_S1x128_S64x128_0_1)
    (foldedB (N := 128) a16 a17 a18 a19 a20 bcast_S_S128 shapeCasts_S128_S1x128)

/-- The kernel's result. -/
def out (a0 : FVec Ideal S100000x128 .f32) (a1 : FVec Ideal S800000x64 .f32) (a2 : IVec S800000x2 32)
    (a3 : FVec Ideal S128x128 .f32) (a4 a5 a6 a7 a8 : FVec Ideal S128 .f32)
    (a9 : FVec Ideal S128x128 .f32) (a10 a11 a12 a13 a14 : FVec Ideal S128 .f32)
    (a15 : FVec Ideal S64x128 .f32) (a16 a17 a18 a19 a20 : FVec Ideal S128 .f32) : FVec Ideal S100000x128 .f32 :=
  Host.scatterAdd scatter_S100000x128_S800000x1_S800000x128_1_0_0_1 (dense a0 a3 a4 a5 a6 a7 a8) (wrapped (dstCol a2))
    (gatedRows a0 a1 a2 a3 a4 a5 a6 a7 a8 a9 a10 a11 a12 a13 a14 a15 a16 a17 a18 a19 a20)

end Cert.KernelIdeal.Closed

end
-- ==== Proof.Boundaries.lean ====
/-
  The value the idealized kernel leaves in its result buffer, as one expression of the argument arrays. Reading the fold
  of @main's five segments backwards from the result: the closing scatter-add adds, at each atom row, the gated rows whose
  destination index (wrapped by the table's length when negative) is that row to the first layer's output; the gated rows
  are the gate kernel's whole-array result on the gathered second-layer rows and the bond rows; the gathered rows are rows
  of the atom kernel's second result at the source indices (wrapped likewise); and the atom kernel's two results are two
  dense layers, each with its normalisation folded into the weights by the first stretch of host operations.
-/
import proofs.«133874_j61314953118453_2_alg».proof.Proof.KernelRun
import proofs.«133874_j61314953118453_2_alg».proof.Proof.RegionGate
import proofs.«133874_j61314953118453_2_alg».proof.Proof.LibFoldedNorm
import proofs.«133874_j61314953118453_2_alg».proof.Proof.KClosed

set_option maxRecDepth 16384

noncomputable section

namespace Cert.KernelIdeal.KValue

open Idealize.ShloMosaic Idealize.ShloMosaic.TcCoe Idealize.ShloMosaic.ValueIdx Idealize.ShloMosaic.StableHlo
open Idealize.SL Idealize.SL.Sem
open Cert.KernelIdeal Cert.KernelIdeal.Gen Cert.KernelIdeal.GenP
open Cert.Layer (layer gate)
open Cert.LayerForms (foldedW foldedB)

variable (m : (ℓ : Loc nD τ sig) → Buf (Elt Ideal) ℓ) (ρ : Dev nD → PrngReg) (c : Dev nD)

/-- An argument array as launched. -/
abbrev arg (b : Ref sig .tc) : Buf (Elt Ideal) ((c : Thread nD τ).loc b) := m ((c : Thread nD τ).loc b)

/-- The first layer's folded weights and bias row. -/
abbrev w1 : FVec Ideal S128x128 .f32 :=
  foldedW (K := 128) (N := 128) (arg m c main_arg3) (arg m c main_arg5) (arg m c main_arg8) bcast_S_S128 bcast_S128_S1x128_1 bcast_S1x128_S128x128_0_1
abbrev b1 : FVec Ideal S1x128 .f32 :=
  foldedB (N := 128) (arg m c main_arg4) (arg m c main_arg5) (arg m c main_arg6) (arg m c main_arg7) (arg m c main_arg8) bcast_S_S128 shapeCasts_S128_S1x128
/-- The second layer's. -/
abbrev w2 : FVec Ideal S128x128 .f32 :=
  foldedW (K := 128) (N := 128) (arg m c main_arg9) (arg m c main_arg11) (arg m c main_arg14) bcast_S_S128 bcast_S128_S1x128_1 bcast_S1x128_S128x128_0_1
abbrev b2 : FVec Ideal S1x128 .f32 :=
  foldedB (N := 128) (arg m c main_arg10) (arg m c main_arg11) (arg m c main_arg12) (arg m c main_arg13) (arg m c main_arg14) bcast_S_S128 shapeCasts_S128_S1x128
/-- The bond layer's. -/
abbrev w3 : FVec Ideal S64x128 .f32 :=
  foldedW (K := 64) (N := 128) (arg m c main_arg15) (arg m c main_arg17) (arg m c main_arg20) bcast_S_S128 bcast_S128_S1x128_1 bcast_S1x128_S64x128_0_1
abbrev b3 : FVec Ideal S1x128 .f32 :=
  foldedB (N := 128) (arg m c main_arg16) (arg m c main_arg17) (arg m c main_arg18) (arg m c main_arg19) (arg m c main_arg20) bcast_S_S128 shapeCasts_S128_S1x128

/-- The first layer on every atom row, and the second layer of it. -/
abbrev h1 : FVec Ideal S100000x128 .f32 := layer (M := 100000) (K := 128) (N := 128) (arg m c main_arg0) (w1 m c) (b1 m c)
abbrev h2 : FVec Ideal S100000x128 .f32 := layer (M := 100000) (K := 128) (N := 128) (h1 m c) (w2 m c) (b2 m c)

/-- A column of the index array as start indices, a negative entry wrapped by the table's length. -/
abbrev wrapped (col : IVec S800000 32) : IVec S800000x1 32 :=
  broadcastInDim S800000x1 ![0] bcast_S800000_S800000x1_0
    (select (cmpi .slt col (broadcastInDim S800000 ![] bcast_S_S800000 (constantI S_ 32 0#32)))
      (addi col (broadcastInDim S800000 ![] bcast_S_S800000 (constantI S_ 32 100000#32))) col)
abbrev srcCol : IVec S800000 32 :=
  shapeCast S800000 (extractStridedSlice S800000x1 ![0, 1] (arg m c main_arg2) slices_S800000x2_S800000x1_0_1) shapeCasts_S800000x1_S800000
abbrev dstCol : IVec S800000 32 :=
  shapeCast S800000 (extractStridedSlice S800000x1 ![0, 0] (arg m c main_arg2) slices_S800000x2_S800000x1_0_0) shapeCasts_S800000x1_S800000

/-- The gathered second-layer rows, and the gated rows. -/
abbrev gathered : FVec Ideal S800000x128 .f32 :=
  Host.gather gather_S100000x128_S800000x1_S800000x128_1_0_n_n_0_1_1128 (h2 m c) (wrapped (srcCol m c))
abbrev gated : FVec Ideal S800000x128 .f32 :=
  gate (M := 800000) (K := 64) (N := 128) (gathered m c) (arg m c main_arg1) (w3 m c) (b3 m c)

/-! ## After the first stretch of host operations -/

theorem s1_arg0 : W1 m ρ c (Proc.devRef .tc main_arg0) = arg m c main_arg0 := by
  show StableHlo.after hostOps0 (W0 m ρ c) (Proc.devRef .tc main_arg0) = _
  after_results_simp <;> rfl
theorem s1_arg1 : W1 m ρ c (Proc.devRef .tc main_arg1) = arg m c main_arg1 := by
  show StableHlo.after hostOps0 (W0 m ρ c) (Proc.devRef .tc main_arg1) = _
  after_results_simp <;> rfl
theorem s1_arg2 : W1 m ρ c (Proc.devRef .tc main_arg2) = arg m c main_arg2 := by
  show StableHlo.after hostOps0 (W0 m ρ c) (Proc.devRef .tc main_arg2) = _
  after_results_simp <;> rfl
theorem s1_w1 : W1 m ρ c (Proc.devRef .tc main_v8) = w1 m c := by
  show StableHlo.after hostOps0 (W0 m ρ c) (Proc.devRef .tc main_v8) = _
  after_results_simp <;> rfl
theorem s1_b1 : W1 m ρ c (Proc.devRef .tc main_v11) = b1 m c := by
  show StableHlo.after hostOps0 (W0 m ρ c) (Proc.devRef .tc main_v11) = _
  after_results_simp <;> rfl
theorem s1_w2 : W1 m ρ c (Proc.devRef .tc main_v20) = w2 m c := by
  show StableHlo.after hostOps0 (W0 m ρ c) (Proc.devRef .tc main_v20) = _
  after_results_simp <;> rfl
theorem s1_b2 : W1 m ρ c (Proc.devRef .tc main_v23) = b2 m c := by
  show StableHlo.after hostOps0 (W0 m ρ c) (Proc.devRef .tc main_v23) = _
  after_results_simp <;> rfl
theorem s1_w3 : W1 m ρ c (Proc.devRef .tc main_v32) = w3 m c := by
  show StableHlo.after hostOps0 (W0 m ρ c) (Proc.devRef .tc main_v32) = _
  after_results_simp <;> rfl
theorem s1_b3 : W1 m ρ c (Proc.devRef .tc main_v35) = b3 m c := by
  show StableHlo.after hostOps0 (W0 m ρ c) (Proc.devRef .tc main_v35) = _
  after_results_simp <;> rfl

/-! ## After the atom kernel -/

theorem s2_h1 : W2 m ρ c (Proc.devRef .tc main_v36_0) = h1 m c := by
  refine (W2_arr m ρ c 5).trans ((Cert.KernelIdeal.Atom.first_array (V1 m ρ) c).trans ?_)
  show layer (W1 m ρ c (Proc.devRef .tc main_arg0)) (W1 m ρ c (Proc.devRef .tc main_v8)) (W1 m ρ c (Proc.devRef .tc main_v11)) = _
  rw [s1_arg0, s1_w1, s1_b1]
theorem s2_h2 : W2 m ρ c (Proc.devRef .tc main_v36_1) = h2 m c := by
  refine (W2_arr m ρ c 6).trans ((Cert.KernelIdeal.Atom.second_array (V1 m ρ) c).trans ?_)
  show layer (layer (W1 m ρ c (Proc.devRef .tc main_arg0)) (W1 m ρ c (Proc.devRef .tc main_v8)) (W1 m ρ c (Proc.devRef .tc main_v11)))
      (W1 m ρ c (Proc.devRef .tc main_v20)) (W1 m ρ c (Proc.devRef .tc main_v23)) = _
  rw [s1_arg0, s1_w1, s1_b1, s1_w2, s1_b2]
theorem s2_arg1 : W2 m ρ c (Proc.devRef .tc main_arg1) = arg m c main_arg1 :=
  (W2_of_ne m ρ c main_arg1 (by decide)).trans (s1_arg1 m ρ c)
theorem s2_arg2 : W2 m ρ c (Proc.devRef .tc main_arg2) = arg m c main_arg2 :=
  (W2_of_ne m ρ c main_arg2 (by decide)).trans (s1_arg2 m ρ c)
theorem s2_w3 : W2 m ρ c (Proc.devRef .tc main_v32) = w3 m c :=
  (W2_of_ne m ρ c main_v32 (by decide)).trans (s1_w3 m ρ c)
theorem s2_b3 : W2 m ρ c (Proc.devRef .tc main_v35) = b3 m c :=
  (W2_of_ne m ρ c main_v35 (by decide)).trans (s1_b3 m ρ c)

/-! ## After the gather -/

theorem s3_gathered : W3 m ρ c (Proc.devRef .tc main_v45) = gathered m c := by
  show StableHlo.after hostOps1 (W2 m ρ c) (Proc.devRef .tc main_v45) = _
  after_results_simp
  rw [s2_h2, s2_arg2]
  rfl
theorem s3_h1 : W3 m ρ c (Proc.devRef .tc main_v36_0) = h1 m c := by
  show StableHlo.after hostOps1 (W2 m ρ c) (Proc.devRef .tc main_v36_0) = _
  after_results_simp
  exact s2_h1 m ρ c
theorem s3_arg1 : W3 m ρ c (Proc.devRef .tc main_arg1) = arg m c main_arg1 := by
  show StableHlo.after hostOps1 (W2 m ρ c) (Proc.devRef .tc main_arg1) = _
  after_results_simp
  exact s2_arg1 m ρ c
theorem s3_arg2 : W3 m ρ c (Proc.devRef .tc main_arg2) = arg m c main_arg2 := by
  show StableHlo.after hostOps1 (W2 m ρ c) (Proc.devRef .tc main_arg2) = _
  after_results_simp
  exact s2_arg2 m ρ c
theorem s3_w3 : W3 m ρ c (Proc.devRef .tc main_v32) = w3 m c := by
  show StableHlo.after hostOps1 (W2 m ρ c) (Proc.devRef .tc main_v32) = _
  after_results_simp
  exact s2_w3 m ρ c
theorem s3_b3 : W3 m ρ c (Proc.devRef .tc main_v35) = b3 m c := by
  show StableHlo.after hostOps1 (W2 m ρ c) (Proc.devRef .tc main_v35) = _
  after_results_simp
  exact s2_b3 m ρ c

/-! ## After the gate kernel -/

theorem s4_gated : W4 m ρ c (Proc.devRef .tc main_v46) = gated m c := by
  refine (W4_arr m ρ c 4).trans ((Cert.KernelIdeal.Gate.gate_array (V3 m ρ) c).trans ?_)
  show gate (W3 m ρ c (Proc.devRef .tc main_v45)) (W3 m ρ c (Proc.devRef .tc main_arg1)) (W3 m ρ c (Proc.devRef .tc main_v32))
      (W3 m ρ c (Proc.devRef .tc main_v35)) = _
  rw [s3_gathered, s3_arg1, s3_w3, s3_b3]
theorem s4_h1 : W4 m ρ c (Proc.devRef .tc main_v36_0) = h1 m c :=
  (W4_of_ne m ρ c main_v36_0 (by decide)).trans (s3_h1 m ρ c)
theorem s4_arg2 : W4 m ρ c (Proc.devRef .tc main_arg2) = arg m c main_arg2 :=
  (W4_of_ne m ρ c main_arg2 (by decide)).trans (s3_arg2 m ρ c)

/-! ## After the scatter-add -/

/-- THE KERNEL'S RESULT: the first layer's output plus, at each atom row, the gated rows sent there. -/
theorem result_eq : W5 m ρ c (Proc.devRef .tc main_v55)
    = Host.scatterAdd scatter_S100000x128_S800000x1_S800000x128_1_0_0_1 (h1 m c) (wrapped (dstCol m c)) (gated m c) := by
  show StableHlo.after hostOps2 (W4 m ρ c) (Proc.devRef .tc main_v55) = _
  after_results_simp
  rw [s4_h1, s4_arg2, s4_gated]
  rfl

/-- The same, as the closed expression of the launch contents of the arguments. -/
theorem result_closed : W5 m ρ c (Proc.devRef .tc main_v55)
    = Cert.KernelIdeal.Closed.out (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) (arg m c main_arg20) := by
  rw [result_eq]
  unfold Cert.KernelIdeal.Closed.out Cert.KernelIdeal.Closed.gatedRows Cert.KernelIdeal.Closed.dense
  rfl

end Cert.KernelIdeal.KValue

end
-- ==== Proof.RefClosed.lean ====
/-
  The reference's result as one expression of its argument arrays: the first dense layer, normalised after the product,
  on every atom row; its rows gathered along the bond list's source column (a negative index wrapped by the table's
  length) and passed through the second normalised layer; the bond rows through the third; the two multiplied entry by
  entry and summed into the atom rows along the destination column (indices taken as they are) from a zero array; and the
  first layer's output added.
-/
import proofs.«133874_j61314953118453_2_alg».proof.Proof.Gen.ReferenceIdeal.Run
import proofs.«133874_j61314953118453_2_alg».proof.Proof.LibFoldedNorm

noncomputable section

namespace Cert.ReferenceIdeal.Closed

open Idealize.ShloMosaic Idealize.ShloMosaic.TcCoe Idealize.ShloMosaic.ValueIdx
open Idealize.SL Idealize.SL.Sem
open Cert.ReferenceIdeal Cert.ReferenceIdeal.Gen
open Cert.LayerForms (normalised)

/-- The first normalised layer on every atom row. -/
def atomLayer (a0 : FVec Ideal S100000x128 .f32) (a3 : FVec Ideal S128x128 .f32) (a4 a5 a6 a7 a8 : FVec Ideal S128 .f32) :
    FVec Ideal S100000x128 .f32 :=
  normalised (M := 100000) (K := 128) (N := 128) dot_S100000x128_S128x128_S100000x128_1_0_0_1_n_n_wf a0 a3 a4 a5 a6 a7 a8
    bcast_S_S128 bcast_S128_S1x128_1 bcast_S1x128_S100000x128_0_1

/-- The source column as start indices, a negative entry wrapped by the table's length. -/
abbrev srcIdx (a2 : IVec S800000x2 32) : IVec S800000x1 32 :=
  broadcastInDim S800000x1 ![0] bcast_S800000_S800000x1_0
    (select (cmpi .slt (shapeCast S800000 (extractStridedSlice S800000x1 ![0, 1] a2 slices_S800000x2_S800000x1_0_1) shapeCasts_S800000x1_S800000)
        (broadcastInDim S800000 ![] bcast_S_S800000 (constantI S_ 32 0#32)))
      (addi (shapeCast S800000 (extractStridedSlice S800000x1 ![0, 1] a2 slices_S800000x2_S800000x1_0_1) shapeCasts_S800000x1_S800000)
        (broadcastInDim S800000 ![] bcast_S_S800000 (constantI S_ 32 100000#32)))
      (shapeCast S800000 (extractStridedSlice S800000x1 ![0, 1] a2 slices_S800000x2_S800000x1_0_1) shapeCasts_S800000x1_S800000))

/-- The destination column as start indices, as it is. -/
abbrev dstIdx (a2 : IVec S800000x2 32) : IVec S800000x1 32 :=
  broadcastInDim S800000x1 ![0] bcast_S800000_S800000x1_0
    (shapeCast S800000 (extractStridedSlice S800000x1 ![0, 0] a2 slices_S800000x2_S800000x1_0_0) shapeCasts_S800000x1_S800000)

/-- The gated rows: the second layer of the gathered first-layer rows times the third layer of the bond rows. -/
def gatedRows (a0 : FVec Ideal S100000x128 .f32) (a1 : FVec Ideal S800000x64 .f32) (a2 : IVec S800000x2 32)
    (a3 : FVec Ideal S128x128 .f32) (a4 a5 a6 a7 a8 : FVec Ideal S128 .f32)
    (a9 : FVec Ideal S128x128 .f32) (a10 a11 a12 a13 a14 : FVec Ideal S128 .f32)
    (a15 : FVec Ideal S64x128 .f32) (a16 a17 a18 a19 a20 : FVec Ideal S128 .f32) : FVec Ideal S800000x128 .f32 :=
  mulf
    (normalised (M := 800000) (K := 128) (N := 128) dot_S800000x128_S128x128_S800000x128_1_0_0_1_n_n_wf
      (Host.gather gather_S100000x128_S800000x1_S800000x128_1_0_n_n_0_1_1128 (atomLayer a0 a3 a4 a5 a6 a7 a8) (srcIdx a2))
      a9 a10 a11 a12 a13 a14 bcast_S_S128 bcast_S128_S1x128_1 bcast_S1x128_S800000x128_0_1)
    (normalised (M := 800000) (K := 64) (N := 128) dot_S800000x64_S64x128_S800000x128_1_0_0_1_n_n_wf a1 a15 a16 a17 a18 a19 a20
      bcast_S_S128 bcast_S128_S1x128_1 bcast_S1x128_S800000x128_0_1)

/-- The reference's result. -/
def out (a0 : FVec Ideal S100000x128 .f32) (a1 : FVec Ideal S800000x64 .f32) (a2 : IVec S800000x2 32)
    (a3 : FVec Ideal S128x128 .f32) (a4 a5 a6 a7 a8 : FVec Ideal S128 .f32)
    (a9 : FVec Ideal S128x128 .f32) (a10 a11 a12 a13 a14 : FVec Ideal S128 .f32)
    (a15 : FVec Ideal S64x128 .f32) (a16 a17 a18 a19 a20 : FVec Ideal S128 .f32) : FVec Ideal S100000x128 .f32 :=
  addf (atomLayer a0 a3 a4 a5 a6 a7 a8)
    (Host.scatterAdd scatter_S100000x128_S800000x1_S800000x128_1_0_0_1
      (broadcastInDim S100000x128 ![] bcast_S_S100000x128 (constant (F := Ideal) S_ .f32 0x00000000#32)) (dstIdx a2)
      (gatedRows a0 a1 a2 a3 a4 a5 a6 a7 a8 a9 a10 a11 a12 a13 a14 a15 a16 a17 a18 a19 a20))

set_option maxRecDepth 16384 in
/-- The reference run's result term is that expression of the launch contents of its arguments. -/
theorem res_eq (m : (ℓ : Loc nD τ sig) → Buf (Elt Ideal) ℓ) (c : Dev nD) :
    Cert.ReferenceIdeal.Value.res_main_v72 (F := Ideal) m c
      = out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) (m ((c.tc : Thread nD τ).loc main_arg14))
          (m ((c.tc : Thread nD τ).loc main_arg15)) (m ((c.tc : Thread nD τ).loc main_arg16)) (m ((c.tc : Thread nD τ).loc main_arg17))
          (m ((c.tc : Thread nD τ).loc main_arg18)) (m ((c.tc : Thread nD τ).loc main_arg19)) (m ((c.tc : Thread nD τ).loc main_arg20)) := by
  unfold Cert.ReferenceIdeal.Value.res_main_v72
  rfl

end Cert.ReferenceIdeal.Closed

end
-- ==== Proof.PreFacts.lean ====
/-
  THE PRECONDITION, READ BACK. The claim's precondition is a conjunction of 24 tests, each a
  reduction by "and" over a whole array: |x| < +∞ at every entry of each of the 20 float inputs, x ≥ 0 at every
  entry of the three variance vectors (inputs 8, 14, 20), and w ≥ 0 (signed) at every entry of column 0 of the
  index array (input 2). From "the conjunction is 1" this module derives what the tests say of the inputs over the
  extended reals: every float entry is a real number (an extended real whose absolute value max x (-x) is below ⊤
  is neither ⊤ nor ⊥), every variance is ≥ 0, and, column 0 being nonnegative, the wrap of negative indices
  (select (X < 0) (X + n) X) returns X itself, since at no entry is the test X < 0 true.
-/
import Idealize.ShloMosaic.Lib.ReduceAll
import Idealize.ShloMosaic.Lib.ValueIdx
import Idealize.ShloMosaic.PureOps.Ideal
import proofs.«133874_j61314953118453_2_alg».proof.Pre_finite_inputs

noncomputable section

namespace Cert.PreFacts

open Idealize.ShloMosaic

/-- The rank-0 shape has one index. -/
instance subsingleton_idx0 : Subsingleton (⟨0, ![]⟩ : Shape).Idx := ⟨fun a b => funext fun d => d.elim0⟩

variable {s u : Shape}

/-- A conjunction of two i1 arrays is all ones exactly when both are. -/
theorem andi_eq_one (x y : IVec s 1) :
    andi x y = (fun _ => 1#1) ↔ x = (fun _ => 1#1) ∧ y = (fun _ => 1#1) := by
  constructor
  · intro h
    exact ⟨funext fun i => (IntOp.andi_eq_one.1 (congrFun h i)).1, funext fun i => (IntOp.andi_eq_one.1 (congrFun h i)).2⟩
  · rintro ⟨hx, hy⟩
    funext i
    exact IntOp.andi_eq_one.2 ⟨congrFun hx i, congrFun hy i⟩

/-- A reduction by "and" over all axes that came out 1 met a 1 at every index. -/
theorem all_of_reduce {axes : List (Fin s.rank)} (p : IVec s 1) (init : IVec u 1)
    (hr : s.ReducesTo axes ⟨0, ![]⟩) (hu : 0 < u.numel)
    (e : Host.reduce IntOp.andi p init hr hu = (fun _ => 1#1)) (i : s.Idx) : p i = 1#1 :=
  Host.reduce_andi_all p init hr hu ValueIdx.ix0 (congrFun e ValueIdx.ix0) i

theorem ofBool_eq_one {b : Bool} : BitVec.ofBool b = 1#1 ↔ b = true := by cases b <;> decide

theorem inf_bits : Ideal.ofBits .f32 0x7F800000#32 = (⊤ : EReal) := by simp [Ideal.ofBits, Ideal.ieee]
theorem zero_bits : Ideal.ofBits .f32 0x00000000#32 = (0 : EReal) := by simp [Ideal.ofBits, Ideal.ieee]

/-- An extended real whose absolute value is below +∞ is a real number. -/
theorem real_of_abs_lt (x : EReal) (h : Ideal.cmp .olt (max x (-x)) (Ideal.ofBits .f32 0x7F800000#32) = 1#1) :
    ∃ r : ℝ, x = (r : EReal) := by
  rw [inf_bits] at h
  simp only [Ideal.cmp, ofBool_eq_one, decide_eq_true_eq] at h
  induction x using EReal.rec with
  | bot => simp at h
  | coe r => exact ⟨r, rfl⟩
  | top => simp at h

/-- An extended real that compares ≥ against the zero pattern is nonnegative. -/
theorem nonneg_of_oge (x : EReal) (h : Ideal.cmp .oge x (Ideal.ofBits .f32 0x00000000#32) = 1#1) : (0 : EReal) ≤ x := by
  rw [zero_bits] at h
  simpa only [Ideal.cmp, ofBool_eq_one, decide_eq_true_eq] using h

/-- The "and" over all entries of the test |x| < +∞ is 1: every entry of x is a real number. -/
theorem real_of_finite {axes : List (Fin s.rank)} (x : FVec Ideal s .f32)
    (hb : (⟨0, ![]⟩ : Shape).BroadcastsInDim s (![] : Fin 0 → Fin s.rank))
    (hr : s.ReducesTo axes ⟨0, ![]⟩) (h0 : 0 < (⟨0, ![]⟩ : Shape).numel)
    (e : Host.reduce IntOp.andi
        (cmpf .olt (Host.absf x) (broadcastInDim s ![] hb (constant (F := Ideal) ⟨0, ![]⟩ .f32 0x7F800000#32)))
        (constantI ⟨0, ![]⟩ 1 1#1) hr h0 = (fun _ => 1#1)) :
    ∀ i, ∃ r : ℝ, x i = (r : EReal) := fun i =>
  real_of_abs_lt (x i) (all_of_reduce _ _ hr h0 e i)

/-- The "and" over all entries of the test x ≥ 0 is 1: every entry of x is nonnegative. -/
theorem nonneg_of_all_oge {axes : List (Fin s.rank)} (x : FVec Ideal s .f32)
    (hb : (⟨0, ![]⟩ : Shape).BroadcastsInDim s (![] : Fin 0 → Fin s.rank))
    (hr : s.ReducesTo axes ⟨0, ![]⟩) (h0 : 0 < (⟨0, ![]⟩ : Shape).numel)
    (e : Host.reduce IntOp.andi
        (cmpf .oge x (broadcastInDim s ![] hb (constant (F := Ideal) ⟨0, ![]⟩ .f32 0x00000000#32)))
        (constantI ⟨0, ![]⟩ 1 1#1) hr h0 = (fun _ => 1#1)) :
    ∀ i, (0 : EReal) ≤ x i := fun i =>
  nonneg_of_oge (x i) (all_of_reduce _ _ hr h0 e i)

/-- A word that tests ≥ 0 signed does not test < 0 signed. -/
theorem slt_zero_of_sge_zero (w : BitVec 32) (h : IntOp.cmpi .sge w 0#32 = 1#1) : ¬ IntOp.cmpi .slt w 0#32 = 1#1 := by
  rw [IntOp.cmpi_sge] at h
  rw [IntOp.cmpi_slt]
  omega

/-- The "and" over all entries of the signed test X ≥ 0 is 1: wrapping the negative entries of X by a constant leaves X as it is. -/
theorem wrap_of_all_sge {axes : List (Fin s.rank)} (X : IVec s 32) (c : BitVec 32)
    (hb hb' hb'' : (⟨0, ![]⟩ : Shape).BroadcastsInDim s (![] : Fin 0 → Fin s.rank))
    (hr : s.ReducesTo axes ⟨0, ![]⟩) (h0 : 0 < (⟨0, ![]⟩ : Shape).numel)
    (e : Host.reduce IntOp.andi
        (cmpi .sge X (broadcastInDim s ![] hb (constantI ⟨0, ![]⟩ 32 0#32)))
        (constantI ⟨0, ![]⟩ 1 1#1) hr h0 = (fun _ => 1#1)) :
    select (cmpi .slt X (broadcastInDim s ![] hb' (constantI ⟨0, ![]⟩ 32 0#32)))
      (addi X (broadcastInDim s ![] hb'' (constantI ⟨0, ![]⟩ 32 c))) X = X := by
  funext i
  have h : IntOp.cmpi .sge (X i) 0#32 = 1#1 := all_of_reduce _ _ hr h0 e i
  exact if_neg (slt_zero_of_sge_zero (X i) h)

/-- The "and" over all entries of the signed test X ≥ 0 is 1: every entry of X reads nonnegative as a signed integer. -/
theorem toInt_nonneg_of_all_sge {axes : List (Fin s.rank)} (X : IVec s 32)
    (hb : (⟨0, ![]⟩ : Shape).BroadcastsInDim s (![] : Fin 0 → Fin s.rank))
    (hr : s.ReducesTo axes ⟨0, ![]⟩) (h0 : 0 < (⟨0, ![]⟩ : Shape).numel)
    (e : Host.reduce IntOp.andi
        (cmpi .sge X (broadcastInDim s ![] hb (constantI ⟨0, ![]⟩ 32 0#32)))
        (constantI ⟨0, ![]⟩ 1 1#1) hr h0 = (fun _ => 1#1)) :
    ∀ i, (0 : Int) ≤ (X i).toInt := fun i => by
  have h : IntOp.cmpi .sge (X i) 0#32 = 1#1 := all_of_reduce _ _ hr h0 e i
  rw [IntOp.cmpi_sge, show (0#32 : BitVec 32).toInt = 0 from by decide] at h
  exact h

/-! ## This precondition -/

open Cert.Pre_finite_inputs Cert.Pre_finite_inputs.Facts

/-- What the precondition says of the 21 inputs. -/
structure Dom [Cert.Pre_finite_inputs.Facts] (a0 : FVec Ideal S100000x128 .f32) (a1 : FVec Ideal S800000x64 .f32) (a2 : IVec S800000x2 32) (a3 : FVec Ideal S128x128 .f32) (a4 : FVec Ideal S128 .f32) (a5 : FVec Ideal S128 .f32) (a6 : FVec Ideal S128 .f32) (a7 : FVec Ideal S128 .f32) (a8 : FVec Ideal S128 .f32) (a9 : FVec Ideal S128x128 .f32) (a10 : FVec Ideal S128 .f32) (a11 : FVec Ideal S128 .f32) (a12 : FVec Ideal S128 .f32) (a13 : FVec Ideal S128 .f32) (a14 : FVec Ideal S128 .f32) (a15 : FVec Ideal S64x128 .f32) (a16 : FVec Ideal S128 .f32) (a17 : FVec Ideal S128 .f32) (a18 : FVec Ideal S128 .f32) (a19 : FVec Ideal S128 .f32) (a20 : FVec Ideal S128 .f32) : Prop where
  /-- Every entry of input 0 is a real number. -/
  real0 : ∀ i, ∃ r : ℝ, a0 i = (r : EReal)
  /-- Every entry of input 1 is a real number. -/
  real1 : ∀ i, ∃ r : ℝ, a1 i = (r : EReal)
  /-- Every entry of input 3 is a real number. -/
  real3 : ∀ i, ∃ r : ℝ, a3 i = (r : EReal)
  /-- Every entry of input 4 is a real number. -/
  real4 : ∀ i, ∃ r : ℝ, a4 i = (r : EReal)
  /-- Every entry of input 5 is a real number. -/
  real5 : ∀ i, ∃ r : ℝ, a5 i = (r : EReal)
  /-- Every entry of input 6 is a real number. -/
  real6 : ∀ i, ∃ r : ℝ, a6 i = (r : EReal)
  /-- Every entry of input 7 is a real number. -/
  real7 : ∀ i, ∃ r : ℝ, a7 i = (r : EReal)
  /-- Every entry of input 8 is a real number. -/
  real8 : ∀ i, ∃ r : ℝ, a8 i = (r : EReal)
  /-- Every entry of input 9 is a real number. -/
  real9 : ∀ i, ∃ r : ℝ, a9 i = (r : EReal)
  /-- Every entry of input 10 is a real number. -/
  real10 : ∀ i, ∃ r : ℝ, a10 i = (r : EReal)
  /-- Every entry of input 11 is a real number. -/
  real11 : ∀ i, ∃ r : ℝ, a11 i = (r : EReal)
  /-- Every entry of input 12 is a real number. -/
  real12 : ∀ i, ∃ r : ℝ, a12 i = (r : EReal)
  /-- Every entry of input 13 is a real number. -/
  real13 : ∀ i, ∃ r : ℝ, a13 i = (r : EReal)
  /-- Every entry of input 14 is a real number. -/
  real14 : ∀ i, ∃ r : ℝ, a14 i = (r : EReal)
  /-- Every entry of input 15 is a real number. -/
  real15 : ∀ i, ∃ r : ℝ, a15 i = (r : EReal)
  /-- Every entry of input 16 is a real number. -/
  real16 : ∀ i, ∃ r : ℝ, a16 i = (r : EReal)
  /-- Every entry of input 17 is a real number. -/
  real17 : ∀ i, ∃ r : ℝ, a17 i = (r : EReal)
  /-- Every entry of input 18 is a real number. -/
  real18 : ∀ i, ∃ r : ℝ, a18 i = (r : EReal)
  /-- Every entry of input 19 is a real number. -/
  real19 : ∀ i, ∃ r : ℝ, a19 i = (r : EReal)
  /-- Every entry of input 20 is a real number. -/
  real20 : ∀ i, ∃ r : ℝ, a20 i = (r : EReal)
  /-- Every entry of the variance vector, input 8, is nonnegative. -/
  nonneg8 : ∀ i, (0 : EReal) ≤ a8 i
  /-- Every entry of the variance vector, input 14, is nonnegative. -/
  nonneg14 : ∀ i, (0 : EReal) ≤ a14 i
  /-- Every entry of the variance vector, input 20, is nonnegative. -/
  nonneg20 : ∀ i, (0 : EReal) ≤ a20 i
  /-- Wrapping the negative entries of column 0 of the index array by 100000 is the identity: none is negative. -/
  wrap :
    select
      (cmpi .slt (shapeCast S800000 (extractStridedSlice S800000x1 ![0, 0] a2 slices_S800000x2_S800000x1_0_0) shapeCasts_S800000x1_S800000)
        (broadcastInDim S800000 ![] bcast_S_S800000 (constantI S_ 32 0#32)))
      (addi (shapeCast S800000 (extractStridedSlice S800000x1 ![0, 0] a2 slices_S800000x2_S800000x1_0_0) shapeCasts_S800000x1_S800000)
        (broadcastInDim S800000 ![] bcast_S_S800000 (constantI S_ 32 100000#32)))
      (shapeCast S800000 (extractStridedSlice S800000x1 ![0, 0] a2 slices_S800000x2_S800000x1_0_0) shapeCasts_S800000x1_S800000)
    = shapeCast S800000 (extractStridedSlice S800000x1 ![0, 0] a2 slices_S800000x2_S800000x1_0_0) shapeCasts_S800000x1_S800000
  /-- The same, over any proofs of the shape relations the terms take. -/
  wrapG : ∀ (hs : S800000x2.Slices ![0, 0] S800000x1) (hc : S800000x1.ShapeCasts S800000)
      (hb hb' : S_.BroadcastsInDim S800000 (![] : Fin 0 → Fin S800000.rank)),
    select
      (cmpi .slt (shapeCast S800000 (extractStridedSlice S800000x1 ![0, 0] a2 hs) hc)
        (broadcastInDim S800000 ![] hb (constantI S_ 32 0#32)))
      (addi (shapeCast S800000 (extractStridedSlice S800000x1 ![0, 0] a2 hs) hc)
        (broadcastInDim S800000 ![] hb' (constantI S_ 32 100000#32)))
      (shapeCast S800000 (extractStridedSlice S800000x1 ![0, 0] a2 hs) hc)
    = shapeCast S800000 (extractStridedSlice S800000x1 ![0, 0] a2 hs) hc
  /-- Every entry of column 0 of the index array reads nonnegative as a signed integer. -/
  col0_nonneg : ∀ (hs : S800000x2.Slices ![0, 0] S800000x1) (hc : S800000x1.ShapeCasts S800000) (i : S800000.Idx),
    (0 : Int) ≤ ((shapeCast S800000 (extractStridedSlice S800000x1 ![0, 0] a2 hs) hc : IVec S800000 32) i).toInt

/-- The precondition as its 24 conjuncts: unfolding the printed chain and splitting each "and". -/
theorem dom_of_pre [Cert.Pre_finite_inputs.Facts] (a0 : FVec Ideal S100000x128 .f32) (a1 : FVec Ideal S800000x64 .f32) (a2 : IVec S800000x2 32) (a3 : FVec Ideal S128x128 .f32) (a4 : FVec Ideal S128 .f32) (a5 : FVec Ideal S128 .f32) (a6 : FVec Ideal S128 .f32) (a7 : FVec Ideal S128 .f32) (a8 : FVec Ideal S128 .f32) (a9 : FVec Ideal S128x128 .f32) (a10 : FVec Ideal S128 .f32) (a11 : FVec Ideal S128 .f32) (a12 : FVec Ideal S128 .f32) (a13 : FVec Ideal S128 .f32) (a14 : FVec Ideal S128 .f32) (a15 : FVec Ideal S64x128 .f32) (a16 : FVec Ideal S128 .f32) (a17 : FVec Ideal S128 .f32) (a18 : FVec Ideal S128 .f32) (a19 : FVec Ideal S128 .f32) (a20 : FVec Ideal S128 .f32)
    (h : Cert.Pre_finite_inputs.fn (F := Ideal) a0 a1 a2 a3 a4 a5 a6 a7 a8 a9 a10 a11 a12 a13 a14 a15 a16 a17 a18 a19 a20 = (fun _ => 1#1)) :
    Dom a0 a1 a2 a3 a4 a5 a6 a7 a8 a9 a10 a11 a12 a13 a14 a15 a16 a17 a18 a19 a20 := by
  simp only [Cert.Pre_finite_inputs.fn, fn_part1, fn_part2, fn_part3, fn_part4, fn_part5, fn_part6, andi_eq_one] at h
  obtain ⟨⟨⟨⟨⟨⟨⟨⟨⟨⟨⟨⟨⟨⟨⟨⟨⟨⟨⟨⟨⟨⟨⟨hf0, hf1⟩, hf3⟩, hf4⟩, hf5⟩, hf6⟩, hf7⟩, hf8⟩, hf9⟩, hf10⟩, hf11⟩, hf12⟩, hf13⟩, hf14⟩, hf15⟩, hf16⟩, hf17⟩, hf18⟩, hf19⟩, hf20⟩, hn8⟩, hn14⟩, hn20⟩, hi2⟩ := h
  exact
    { real0 := real_of_finite a0 _ _ _ hf0
      real1 := real_of_finite a1 _ _ _ hf1
      real3 := real_of_finite a3 _ _ _ hf3
      real4 := real_of_finite a4 _ _ _ hf4
      real5 := real_of_finite a5 _ _ _ hf5
      real6 := real_of_finite a6 _ _ _ hf6
      real7 := real_of_finite a7 _ _ _ hf7
      real8 := real_of_finite a8 _ _ _ hf8
      real9 := real_of_finite a9 _ _ _ hf9
      real10 := real_of_finite a10 _ _ _ hf10
      real11 := real_of_finite a11 _ _ _ hf11
      real12 := real_of_finite a12 _ _ _ hf12
      real13 := real_of_finite a13 _ _ _ hf13
      real14 := real_of_finite a14 _ _ _ hf14
      real15 := real_of_finite a15 _ _ _ hf15
      real16 := real_of_finite a16 _ _ _ hf16
      real17 := real_of_finite a17 _ _ _ hf17
      real18 := real_of_finite a18 _ _ _ hf18
      real19 := real_of_finite a19 _ _ _ hf19
      real20 := real_of_finite a20 _ _ _ hf20
      nonneg8 := nonneg_of_all_oge a8 _ _ _ hn8
      nonneg14 := nonneg_of_all_oge a14 _ _ _ hn14
      nonneg20 := nonneg_of_all_oge a20 _ _ _ hn20
      wrap := wrap_of_all_sge _ 100000#32 _ _ _ _ _ hi2
      wrapG := fun hs hc hb hb' => wrap_of_all_sge _ 100000#32 hb hb hb' _ _ hi2
      col0_nonneg := fun hs hc => toInt_nonneg_of_all_sge _ _ _ _ hi2 }

end Cert.PreFacts

end
-- ==== Proof.LibScatterAdd.lean ====
/-
  The host's accumulating scatter over the extended reals, split at its base: scattering updates onto an array x gives,
  entry by entry, x plus what the same scatter leaves on an array of zeros. (Each entry of the result is the base entry plus
  the sum of the updates that land there; with a zero base the sum stands alone.)
-/
import Idealize.ShloMosaic.PureOps.Ideal

noncomputable section

namespace Cert.LibScatterAdd

open Idealize.ShloMosaic

/-- Scatter-add onto x is x plus scatter-add onto an all-zero array, for any dimension numbers, indices and updates. -/
theorem scatterAdd_base {s si su : Shape} {w : Nat} {φ : FTy} (d : ScatterDims s si su) (x z : FVec Ideal s φ)
    (hz : ∀ i, z i = 0) (idx : IVec si w) (upd : FVec Ideal su φ) :
    Host.scatterAdd d x idx upd = addf x (Host.scatterAdd d z idx upd) := by
  funext i
  show x i + (∑ j ∈ Finset.univ.filter (fun j => d.resultIdx? j idx = some i), upd j)
      = x i + (z i + ∑ j ∈ Finset.univ.filter (fun j => d.resultIdx? j idx = some i), upd j)
  rw [hz i, zero_add]

end Cert.LibScatterAdd

end
-- ==== Proof.LibGatherRows.lean ====
/-
  `stablehlo.gather` of a rank-2 table `x : [N, C]` READ AT AN INDEX, in the three forms a row lookup takes:
  whole rows `x[i, :]` (one-component start indices), single entries `x[i, c]` (two-component start indices,
  both axes collapsed) and row segments `x[i, c : c + K]` (two-component start indices, the second axis an offset
  axis of slice size `K`). Each start index component is read as a signed integer and clamped so that the slice fits:
  the row into `[0, N − 1]`, the column into `[0, C − 1]` for a single entry and into `[0, C − K]` for a segment.
-/
import Idealize.ShloMosaic.Lib.ValueIdx

noncomputable section

namespace Idealize.ShloMosaic.GatherRows

open Idealize.ShloMosaic Idealize.ShloMosaic.ValueIdx

/-! ## Whole rows: `x[idx[e, 0], :]`

`stablehlo.gather` with offset_dims `[1]`, collapsed_slice_dims `[0]`, start_index_map `[0]`, slice_sizes `[1, C]` and
index_vector_dim 1 over start indices `[E, 1]`: result element `(e, c)` is `x` at row `idx[e, 0]` (read signed,
clamped into `[0, N − 1]`) and column `c`. -/

section Rows
variable {α : Type}

/-- Those dimension numbers for an operand `[N, C]`, start indices `[E, 1]` and result `[E, C]`; their conditions
    `wf` are decided on a program's literal shapes. -/
abbrev rowsDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the table at row `idx[e, 0]`, read signed and clamped into `[0, N − 1]`, and
    column `c`. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowsDims N C E wf) x idx (ix2 e c)
      = x (ix2 ⟨min (idx (ix2 e 0)).toInt.toNat (N - 1), by omega⟩ c) := by
  unfold Host.gather
  congr 1
  funext a
  refine Fin.ext ?_
  match a with
  | ⟨0, _⟩ =>
    show (rowsDims N C E wf).start (ix2 e c) idx 0 + (rowsDims N C E wf).batchCoord (ix2 e c) 0
      + (rowsDims N C E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C E wf).startIndexMap from List.mem_singleton.mpr rfl)]
    have hsi : (rowsDims N C E wf).siIdx (ix2 e c) ⟨List.idxOf (0 : Fin 2) (rowsDims N C E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowsDims N C E wf).start (ix2 e c) idx 1 + (rowsDims N C E wf).batchCoord (ix2 e c) 1
      + (rowsDims N C E wf).offCoord (ix2 e c) 1 = _
    rw [GatherDims.batchCoord_eq_zero _ _ _ List.not_mem_nil]
    have hst : (rowsDims N C E wf).start (ix2 e c) idx 1 = 0 := by
      unfold GatherDims.start
      rw [dif_neg (show (1 : Fin 2) ∉ ([0] : List (Fin 2)) by decide)]
    rw [hst]
    simp only [Nat.add_zero, Nat.zero_add]
    unfold GatherDims.offCoord
    rw [dif_pos ((GatherDims.mem_sKept (rowsDims N C E wf) 1).mpr
      ⟨show (1 : Fin 2) ∉ ([0] : List (Fin 2)) by decide, List.not_mem_nil⟩)]
    rfl

end Rows

/-! ## Single entries: `x[idx[e, 0], idx[e, 1]]`

`stablehlo.gather` with offset_dims `[]`, collapsed_slice_dims `[0, 1]`, start_index_map `[0, 1]`, slice_sizes `[1, 1]`
and index_vector_dim 1 over start indices `[E, 2]`: result element `e` is `x` at row `idx[e, 0]` and column
`idx[e, 1]`, each read signed and clamped into its axis (`[0, N − 1]` and `[0, C − 1]`). -/

section Point
variable {α : Type}

/-- Those dimension numbers for an operand `[N, C]`, start indices `[E, 2]` and result `[E]`; their conditions
    `wf` are decided on a program's literal shapes. -/
abbrev pointDims (N C E : Nat)
    (wf : GatherDims.WF ⟨2, ![N, C]⟩ ⟨2, ![E, 2]⟩ ⟨1, ![E]⟩ [] [0, 1] [] [0, 1] [] 1 ![1, 1]) :
    GatherDims ⟨2, ![N, C]⟩ ⟨2, ![E, 2]⟩ ⟨1, ![E]⟩ where
  offsetDims := []
  collapsedSliceDims := [0, 1]
  operandBatchingDims := []
  startIndicesBatchingDims := []
  startIndexMap := [0, 1]
  indexVectorDim := 1
  sliceSizes := ![1, 1]
  wf := wf

/-- THE ENTRY GATHER READ AT `e`: the table at row `idx[e, 0]`, read signed and clamped into `[0, N − 1]`, and
    column `idx[e, 1]`, read signed and clamped into `[0, C − 1]`. -/
theorem gather_point_apply {N C E w : Nat} (hN : 0 < N) (hC : 0 < C)
    (wf : GatherDims.WF ⟨2, ![N, C]⟩ ⟨2, ![E, 2]⟩ ⟨1, ![E]⟩ [] [0, 1] [] [0, 1] [] 1 ![1, 1])
    (x : (⟨2, ![N, C]⟩ : Shape).Idx → α) (idx : IVec ⟨2, ![E, 2]⟩ w) (e : Fin E) :
    Host.gather (pointDims N C E wf) x idx (ix1 e)
      = x (ix2 ⟨min (idx (ix2 e 0)).toInt.toNat (N - 1), by omega⟩
            ⟨min (idx (ix2 e 1)).toInt.toNat (C - 1), by omega⟩) := by
  unfold Host.gather
  congr 1
  funext a
  refine Fin.ext ?_
  match a with
  | ⟨0, _⟩ =>
    show (pointDims N C E wf).start (ix1 e) idx 0 + (pointDims N C E wf).batchCoord (ix1 e) 0
      + (pointDims N C E wf).offCoord (ix1 e) 0 = _
    rw [GatherDims.batchCoord_eq_zero _ _ _ List.not_mem_nil,
      GatherDims.offCoord_eq_zero _ _ _ (fun h => ((GatherDims.mem_sKept _ _).mp h).1
        (show (0 : Fin 2) ∈ ([0, 1] : List (Fin 2)) by decide))]
    simp only [Nat.add_zero]
    unfold GatherDims.start
    rw [dif_pos (show (0 : Fin 2) ∈ ([0, 1] : List (Fin 2)) by decide)]
    have hsi : (pointDims N C E wf).siIdx (ix1 e) ⟨List.idxOf (0 : Fin 2) (pointDims N C E wf).startIndexMap,
        List.idxOf_lt_length_iff.2 (show (0 : Fin 2) ∈ ([0, 1] : List (Fin 2)) by decide)⟩ = ix2 e 0 := by
      funext b; refine Fin.ext ?_
      match b with
      | ⟨0, _⟩ => rfl
      | ⟨1, _⟩ => rfl
    rw [hsi]
    rfl
  | ⟨1, _⟩ =>
    show (pointDims N C E wf).start (ix1 e) idx 1 + (pointDims N C E wf).batchCoord (ix1 e) 1
      + (pointDims N C E wf).offCoord (ix1 e) 1 = _
    rw [GatherDims.batchCoord_eq_zero _ _ _ List.not_mem_nil,
      GatherDims.offCoord_eq_zero _ _ _ (fun h => ((GatherDims.mem_sKept _ _).mp h).1
        (show (1 : Fin 2) ∈ ([0, 1] : List (Fin 2)) by decide))]
    simp only [Nat.add_zero]
    unfold GatherDims.start
    rw [dif_pos (show (1 : Fin 2) ∈ ([0, 1] : List (Fin 2)) by decide)]
    have hsi : (pointDims N C E wf).siIdx (ix1 e) ⟨List.idxOf (1 : Fin 2) (pointDims N C E wf).startIndexMap,
        List.idxOf_lt_length_iff.2 (show (1 : Fin 2) ∈ ([0, 1] : List (Fin 2)) by decide)⟩ = ix2 e 1 := by
      funext b; refine Fin.ext ?_
      match b with
      | ⟨0, _⟩ => rfl
      | ⟨1, _⟩ => rfl
    rw [hsi]
    rfl

end Point

/-! ## Row segments: `x[idx[e, 0], idx[e, 1] : idx[e, 1] + K]`

`stablehlo.gather` with offset_dims `[1]`, collapsed_slice_dims `[0]`, start_index_map `[0, 1]`, slice_sizes `[1, K]`
and index_vector_dim 1 over start indices `[E, 2]`: result element `(e, k)` is `x` at row `idx[e, 0]` (read signed,
clamped into `[0, N − 1]`) and column `idx[e, 1] + k`, the segment's start read signed and clamped into
`[0, C − K]` so that the whole segment lies in the row. -/

section RowSlice
variable {α : Type}

/-- Those dimension numbers for an operand `[N, C]`, start indices `[E, 2]` and result `[E, K]`; their conditions
    `wf` are decided on a program's literal shapes. -/
abbrev rowSliceDims (N C E K : Nat)
    (wf : GatherDims.WF ⟨2, ![N, C]⟩ ⟨2, ![E, 2]⟩ ⟨2, ![E, K]⟩ [1] [0] [] [0, 1] [] 1 ![1, K]) :
    GatherDims ⟨2, ![N, C]⟩ ⟨2, ![E, 2]⟩ ⟨2, ![E, K]⟩ where
  offsetDims := [1]
  collapsedSliceDims := [0]
  operandBatchingDims := []
  startIndicesBatchingDims := []
  startIndexMap := [0, 1]
  indexVectorDim := 1
  sliceSizes := ![1, K]
  wf := wf

/-- THE SEGMENT GATHER READ AT `(e, k)`: the table at row `idx[e, 0]`, read signed and clamped into `[0, N − 1]`,
    and column `s + k`, where `s` is `idx[e, 1]` read signed and clamped into `[0, C − K]`. -/
theorem gather_rowSlice_apply {N C E K w : Nat} (hN : 0 < N) (hK : K ≤ C)
    (wf : GatherDims.WF ⟨2, ![N, C]⟩ ⟨2, ![E, 2]⟩ ⟨2, ![E, K]⟩ [1] [0] [] [0, 1] [] 1 ![1, K])
    (x : (⟨2, ![N, C]⟩ : Shape).Idx → α) (idx : IVec ⟨2, ![E, 2]⟩ w) (e : Fin E) (k : Fin K) :
    Host.gather (rowSliceDims N C E K wf) x idx (ix2 e k)
      = x (ix2 ⟨min (idx (ix2 e 0)).toInt.toNat (N - 1), by omega⟩
            ⟨min (idx (ix2 e 1)).toInt.toNat (C - K) + k.val, by have := k.isLt; omega⟩) := by
  unfold Host.gather
  congr 1
  funext a
  refine Fin.ext ?_
  match a with
  | ⟨0, _⟩ =>
    show (rowSliceDims N C E K wf).start (ix2 e k) idx 0 + (rowSliceDims N C E K wf).batchCoord (ix2 e k) 0
      + (rowSliceDims N C E K wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ ([0, 1] : List (Fin 2)) by decide)]
    have hsi : (rowSliceDims N C E K wf).siIdx (ix2 e k) ⟨List.idxOf (0 : Fin 2) (rowSliceDims N C E K wf).startIndexMap,
        List.idxOf_lt_length_iff.2 (show (0 : Fin 2) ∈ ([0, 1] : List (Fin 2)) by decide)⟩ = ix2 e 0 := by
      funext b; refine Fin.ext ?_
      match b with
      | ⟨0, _⟩ => rfl
      | ⟨1, _⟩ => rfl
    rw [hsi]
    rfl
  | ⟨1, _⟩ =>
    show (rowSliceDims N C E K wf).start (ix2 e k) idx 1 + (rowSliceDims N C E K wf).batchCoord (ix2 e k) 1
      + (rowSliceDims N C E K wf).offCoord (ix2 e k) 1 = _
    rw [GatherDims.batchCoord_eq_zero _ _ _ List.not_mem_nil]
    have hoff : (rowSliceDims N C E K wf).offCoord (ix2 e k) 1 = k.val := by
      unfold GatherDims.offCoord
      rw [dif_pos ((GatherDims.mem_sKept (rowSliceDims N C E K wf) 1).mpr
        ⟨show (1 : Fin 2) ∉ ([0] : List (Fin 2)) by decide, List.not_mem_nil⟩)]
      rfl
    rw [hoff]
    simp only [Nat.add_zero]
    unfold GatherDims.start
    rw [dif_pos (show (1 : Fin 2) ∈ ([0, 1] : List (Fin 2)) by decide)]
    have hsi : (rowSliceDims N C E K wf).siIdx (ix2 e k) ⟨List.idxOf (1 : Fin 2) (rowSliceDims N C E K wf).startIndexMap,
        List.idxOf_lt_length_iff.2 (show (1 : Fin 2) ∈ ([0, 1] : List (Fin 2)) by decide)⟩ = ix2 e 1 := by
      funext b; refine Fin.ext ?_
      match b with
      | ⟨0, _⟩ => rfl
      | ⟨1, _⟩ => rfl
    rw [hsi]
    rfl

end RowSlice

end Idealize.ShloMosaic.GatherRows

end
-- ==== Proof.Bridge.lean ====
/-
  The bridge: on the stated domain the idealized kernel's result and the reference's are one array.
  Both are the first dense layer's output plus, at each atom row, the sum of the gated bond rows sent there. They differ in
  three places. (1) Each of the three dense layers is computed with its normalisation folded into the weights (kernel) or
  applied after the product (reference): equal where every input entry is a real number and the variances are nonnegative,
  by distributing γ · rsqrt (v + ε) over the sum. (2) The second layer is applied before the row gather (kernel) or after
  it (reference): a layer acts on each row by itself, so the gathered row of the layer's output is the layer of the
  gathered row. (3) The scatter-add starts from the first layer's output with destination indices wrapped when negative
  (kernel), or starts from zeros with the indices as they are and adds the first layer's output afterwards (reference):
  the same sums where no destination index is negative, which makes the wrap the identity.
-/
import proofs.«133874_j61314953118453_2_alg».proof.Proof.KClosed
import proofs.«133874_j61314953118453_2_alg».proof.Proof.Gen.Pre_finite_inputs
import proofs.«133874_j61314953118453_2_alg».proof.Proof.RefClosed
import proofs.«133874_j61314953118453_2_alg».proof.Proof.LibFoldedNorm
import proofs.«133874_j61314953118453_2_alg».proof.Proof.LibScatterAdd
import proofs.«133874_j61314953118453_2_alg».proof.Proof.LibGatherRows
import proofs.«133874_j61314953118453_2_alg».proof.Proof.PreFacts

noncomputable section

/-! ## The two results are one array -/

namespace Cert.Bridge

open Idealize.ShloMosaic Idealize.ShloMosaic.ValueIdx
open Cert.Layer (layer layer_apply gate gate_apply)
open Cert.LayerForms (foldedW foldedB normalised normalised_apply folded_eq_normalised)

section
variable (a0 : FVec Ideal ⟨2, ![100000, 128]⟩ .f32) (a1 : FVec Ideal ⟨2, ![800000, 64]⟩ .f32) (a2 : IVec ⟨2, ![800000, 2]⟩ 32)
    (a3 : FVec Ideal ⟨2, ![128, 128]⟩ .f32) (a4 a5 a6 a7 a8 : FVec Ideal ⟨1, ![128]⟩ .f32)
    (a9 : FVec Ideal ⟨2, ![128, 128]⟩ .f32) (a10 a11 a12 a13 a14 : FVec Ideal ⟨1, ![128]⟩ .f32)
    (a15 : FVec Ideal ⟨2, ![64, 128]⟩ .f32) (a16 a17 a18 a19 a20 : FVec Ideal ⟨1, ![128]⟩ .f32)
    (dom : Cert.PreFacts.Dom a0 a1 a2 a3 a4 a5 a6 a7 a8 a9 a10 a11 a12 a13 a14 a15 a16 a17 a18 a19 a20)
include dom

/-- (1) The first layer, folded or normalised, is one real number at every entry. -/
theorem first_real (P : Fin 100000) (q : Fin 128) :
    ∃ a : ℝ, Cert.KernelIdeal.Closed.dense a0 a3 a4 a5 a6 a7 a8 (ix2 P q) = (a : EReal)
      ∧ Cert.ReferenceIdeal.Closed.atomLayer a0 a3 a4 a5 a6 a7 a8 (ix2 P q) = (a : EReal) :=
  folded_eq_normalised (M := 100000) (K := 128) (N := 128) _ a0 a3 a4 a5 a6 a7 a8 _ _ _ _ _ _ P q
    (fun k => dom.real0 _) (fun k => dom.real3 _) (dom.real4 _) (dom.real5 _) (dom.real6 _) (dom.real7 _) (dom.real8 _)
    (dom.nonneg8 _)

theorem first_eq : Cert.KernelIdeal.Closed.dense a0 a3 a4 a5 a6 a7 a8 = Cert.ReferenceIdeal.Closed.atomLayer a0 a3 a4 a5 a6 a7 a8 := by
  funext i
  obtain ⟨P, q, rfl⟩ : ∃ (P : Fin 100000) (q : Fin 128), i = ix2 P q := ⟨i 0, i 1, eq_ix2 i⟩
  obtain ⟨a, hk, hr⟩ := first_real a0 a1 a2 a3 a4 a5 a6 a7 a8 a9 a10 a11 a12 a13 a14 a15 a16 a17 a18 a19 a20 dom P q
  exact hk.trans hr.symm

/-- (3, the indices) No destination index is negative, so wrapping them is the identity. -/
theorem dst_eq : Cert.KernelIdeal.Closed.wrapped (Cert.KernelIdeal.Closed.dstCol a2) = Cert.ReferenceIdeal.Closed.dstIdx a2 := by
  have h : select (cmpi .slt (shapeCast Cert.KernelIdeal.S800000 (extractStridedSlice Cert.KernelIdeal.S800000x1 ![0, 0] a2 Cert.KernelIdeal.Gen.slices_S800000x2_S800000x1_0_0) Cert.KernelIdeal.Gen.shapeCasts_S800000x1_S800000) (broadcastInDim Cert.KernelIdeal.S800000 ![] Cert.KernelIdeal.Gen.bcast_S_S800000 (constantI Cert.KernelIdeal.S_ 32 0#32)))
      (addi (shapeCast Cert.KernelIdeal.S800000 (extractStridedSlice Cert.KernelIdeal.S800000x1 ![0, 0] a2 Cert.KernelIdeal.Gen.slices_S800000x2_S800000x1_0_0) Cert.KernelIdeal.Gen.shapeCasts_S800000x1_S800000) (broadcastInDim Cert.KernelIdeal.S800000 ![] Cert.KernelIdeal.Gen.bcast_S_S800000 (constantI Cert.KernelIdeal.S_ 32 100000#32))) (shapeCast Cert.KernelIdeal.S800000 (extractStridedSlice Cert.KernelIdeal.S800000x1 ![0, 0] a2 Cert.KernelIdeal.Gen.slices_S800000x2_S800000x1_0_0) Cert.KernelIdeal.Gen.shapeCasts_S800000x1_S800000) = (shapeCast Cert.KernelIdeal.S800000 (extractStridedSlice Cert.KernelIdeal.S800000x1 ![0, 0] a2 Cert.KernelIdeal.Gen.slices_S800000x2_S800000x1_0_0) Cert.KernelIdeal.Gen.shapeCasts_S800000x1_S800000) :=
    dom.wrapG Cert.KernelIdeal.Gen.slices_S800000x2_S800000x1_0_0 Cert.KernelIdeal.Gen.shapeCasts_S800000x1_S800000
      Cert.KernelIdeal.Gen.bcast_S_S800000 Cert.KernelIdeal.Gen.bcast_S_S800000
  unfold Cert.KernelIdeal.Closed.wrapped Cert.KernelIdeal.Closed.dstCol
  rw [h]

/-- (1) and (2) The gated rows agree: row e of the kernel's is the second folded layer at the gathered row times the folded
    bond layer, the reference's the second normalised layer of the gathered first-layer row times the normalised bond layer. -/
theorem gated_eq : Cert.KernelIdeal.Closed.gatedRows a0 a1 a2 a3 a4 a5 a6 a7 a8 a9 a10 a11 a12 a13 a14 a15 a16 a17 a18 a19 a20 = Cert.ReferenceIdeal.Closed.gatedRows a0 a1 a2 a3 a4 a5 a6 a7 a8 a9 a10 a11 a12 a13 a14 a15 a16 a17 a18 a19 a20 := by
  funext i
  obtain ⟨e, q, rfl⟩ : ∃ (e : Fin 800000) (q : Fin 128), i = ix2 e q := ⟨i 0, i 1, eq_ix2 i⟩
  -- the row the gather reads for bond e: the source index, wrapped when negative, read signed and clamped into the table
  have hsrc : Cert.KernelIdeal.Closed.wrapped (Cert.KernelIdeal.Closed.srcCol a2) = Cert.ReferenceIdeal.Closed.srcIdx a2 := rfl
  obtain ⟨r, hrK, hrR⟩ : ∃ r : Fin 100000,
      (∀ (x : FVec Ideal ⟨2, ![100000, 128]⟩ .f32) (k : Fin 128),
        Host.gather Cert.KernelIdeal.gather_S100000x128_S800000x1_S800000x128_1_0_n_n_0_1_1128 x (Cert.ReferenceIdeal.Closed.srcIdx a2) (ix2 e k) = x (ix2 r k))
      ∧ (∀ (x : FVec Ideal ⟨2, ![100000, 128]⟩ .f32) (k : Fin 128),
        Host.gather Cert.ReferenceIdeal.gather_S100000x128_S800000x1_S800000x128_1_0_n_n_0_1_1128 x (Cert.ReferenceIdeal.Closed.srcIdx a2) (ix2 e k) = x (ix2 r k)) :=
    ⟨⟨min ((Cert.ReferenceIdeal.Closed.srcIdx a2) (ix2 e 0)).toInt.toNat (100000 - 1), by omega⟩,
      fun x k => Idealize.ShloMosaic.GatherRows.gather_rows_apply (N := 100000) (C := 128) (E := 800000) (by norm_num) _ x _ e k,
      fun x k => Idealize.ShloMosaic.GatherRows.gather_rows_apply (N := 100000) (C := 128) (E := 800000) (by norm_num) _ x _ e k⟩
  -- the second layer at the gathered row: folded over the kernel's first layer, normalised over the reference's
  obtain ⟨s, hsK, hsR⟩ := folded_eq_normalised (M := 100000) (K := 128) (N := 128)
    Cert.ReferenceIdeal.Gen.dot_S100000x128_S128x128_S100000x128_1_0_0_1_n_n_wf
    (Cert.KernelIdeal.Closed.dense a0 a3 a4 a5 a6 a7 a8) a9 a10 a11 a12 a13 a14
    Cert.KernelIdeal.Gen.bcast_S_S128 Cert.KernelIdeal.Gen.bcast_S128_S1x128_1 Cert.KernelIdeal.Gen.bcast_S1x128_S128x128_0_1
    Cert.KernelIdeal.Gen.shapeCasts_S128_S1x128 Cert.ReferenceIdeal.Gen.bcast_S128_S1x128_1 Cert.ReferenceIdeal.Gen.bcast_S1x128_S100000x128_0_1 r q
    (fun k => by obtain ⟨a, hk, -⟩ := first_real a0 a1 a2 a3 a4 a5 a6 a7 a8 a9 a10 a11 a12 a13 a14 a15 a16 a17 a18 a19 a20 dom r k; exact ⟨a, hk⟩)
    (fun k => dom.real9 _) (dom.real10 _) (dom.real11 _) (dom.real12 _) (dom.real13 _) (dom.real14 _) (dom.nonneg14 _)
  -- the bond layer
  obtain ⟨u, huK, huR⟩ := folded_eq_normalised (M := 800000) (K := 64) (N := 128)
    Cert.ReferenceIdeal.Gen.dot_S800000x64_S64x128_S800000x128_1_0_0_1_n_n_wf a1 a15 a16 a17 a18 a19 a20
    Cert.KernelIdeal.Gen.bcast_S_S128 Cert.KernelIdeal.Gen.bcast_S128_S1x128_1 Cert.KernelIdeal.Gen.bcast_S1x128_S64x128_0_1
    Cert.KernelIdeal.Gen.shapeCasts_S128_S1x128 Cert.ReferenceIdeal.Gen.bcast_S128_S1x128_1 Cert.ReferenceIdeal.Gen.bcast_S1x128_S800000x128_0_1 e q
    (fun k => dom.real1 _) (fun k => dom.real15 _) (dom.real16 _) (dom.real17 _) (dom.real18 _) (dom.real19 _) (dom.real20 _)
    (dom.nonneg20 _)
  -- the kernel's side
  have hKside : Cert.KernelIdeal.Closed.gatedRows a0 a1 a2 a3 a4 a5 a6 a7 a8 a9 a10 a11 a12 a13 a14 a15 a16 a17 a18 a19 a20 (ix2 e q) = (s : EReal) * (u : EReal) := by
    unfold Cert.KernelIdeal.Closed.gatedRows
    rw [gate_apply, ← layer_apply, hsrc, hrK]
    exact congrArg₂ (· * ·) hsK huK
  -- the reference's side: its second layer reads the gathered row of its first layer, which is the kernel's first layer
  have hRside : Cert.ReferenceIdeal.Closed.gatedRows a0 a1 a2 a3 a4 a5 a6 a7 a8 a9 a10 a11 a12 a13 a14 a15 a16 a17 a18 a19 a20 (ix2 e q) = (s : EReal) * (u : EReal) := by
    unfold Cert.ReferenceIdeal.Closed.gatedRows
    refine congrArg₂ (· * ·) ?_ huR
    rw [normalised_apply] at hsR ⊢
    rw [← hsR]
    simp only [hrR, first_eq a0 a1 a2 a3 a4 a5 a6 a7 a8 a9 a10 a11 a12 a13 a14 a15 a16 a17 a18 a19 a20 dom]
  exact hKside.trans hRside.symm

/-- THE TWO RESULTS ARE ONE ARRAY. -/
theorem out_eq : Cert.KernelIdeal.Closed.out a0 a1 a2 a3 a4 a5 a6 a7 a8 a9 a10 a11 a12 a13 a14 a15 a16 a17 a18 a19 a20 = Cert.ReferenceIdeal.Closed.out a0 a1 a2 a3 a4 a5 a6 a7 a8 a9 a10 a11 a12 a13 a14 a15 a16 a17 a18 a19 a20 := by
  unfold Cert.KernelIdeal.Closed.out Cert.ReferenceIdeal.Closed.out
  rw [first_eq a0 a1 a2 a3 a4 a5 a6 a7 a8 a9 a10 a11 a12 a13 a14 a15 a16 a17 a18 a19 a20 dom, dst_eq a0 a1 a2 a3 a4 a5 a6 a7 a8 a9 a10 a11 a12 a13 a14 a15 a16 a17 a18 a19 a20 dom, gated_eq a0 a1 a2 a3 a4 a5 a6 a7 a8 a9 a10 a11 a12 a13 a14 a15 a16 a17 a18 a19 a20 dom]
  exact Cert.LibScatterAdd.scatterAdd_base _ _ _ (fun i => by
    rw [broadcastInDim_apply _ _ _ i ix0 (fun a => a.elim0)]
    exact Cert.PreFacts.zero_bits) _ _

end

end Cert.Bridge

end
-- ==== Proof.lean ====
/-
  The certificate of the graph-convolution kernel against its jnp reference: preserves and algebraic, over the extended
  reals, under the precondition "every float input is finite, the three variance vectors are nonnegative, and no
  destination index of the bond list is negative".

  The kernel computes, for 100000 atoms and 800000 bonds: a dense layer on the atom features; a second dense layer on
  that; the second layer's rows gathered at the bonds' source atoms; a dense layer on the bond features, multiplied entry
  by entry with the gathered rows; and the products summed into the first layer's output at the bonds' destination atoms.
  Each dense layer carries an inference batch normalisation that the kernel folds into the layer's weights and bias before
  the matrix product. The reference applies each normalisation after its product, applies the second layer after the
  gather, and sums the products into a zero array that it then adds to the first layer's output.

  The two agree exactly where the folding is sound on the extended reals: all inputs real and each variance v ≥ 0, so that
  rsqrt (v + ε) is a real number and γ · rsqrt (v + ε) distributes over the sum and the bias (at v + ε ≤ 0 the reciprocal
  root is infinite or undefined and the two arrangements differ). The kernel wraps a negative destination index by the
  table's length where the reference's segment sum drops it, so the two agree where no destination index is negative.

  The frames of the two kernel programs are the generated frame certificates; the reference's frame is its generated run
  with the result dropped; preserves is trivial (the idealization changed nothing). For algebraic, the kernel's run is the
  frame's run with every buffer that outlives the program named at the last boundary of @main's five segments, that
  boundary's value at the result buffer is read back through the segments to one expression of the arguments, the
  reference's run gives its own expression, and the bridge shows the two expressions equal on the domain.
-/
import proofs.«133874_j61314953118453_2_alg».proof.Defs
import proofs.«133874_j61314953118453_2_alg».proof.Proof.Gen.Kernel
import proofs.«133874_j61314953118453_2_alg».proof.Proof.KernelFrameP
import proofs.«133874_j61314953118453_2_alg».proof.Proof.Gen.KernelIdeal
import proofs.«133874_j61314953118453_2_alg».proof.Proof.KernelIdealFrameP
import proofs.«133874_j61314953118453_2_alg».proof.Proof.Gen.ReferenceIdeal
import proofs.«133874_j61314953118453_2_alg».proof.Proof.Gen.ReferenceIdeal.Run
import proofs.«133874_j61314953118453_2_alg».proof.Proof.Gen.Pre_finite_inputs
import proofs.«133874_j61314953118453_2_alg».proof.Proof.KernelRun
import proofs.«133874_j61314953118453_2_alg».proof.Proof.Boundaries
import proofs.«133874_j61314953118453_2_alg».proof.Proof.RefClosed
import proofs.«133874_j61314953118453_2_alg».proof.Proof.PreFacts
import proofs.«133874_j61314953118453_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.GenP.frame m ρ

theorem frame_kernelIdeal : Cert.frame_KernelIdeal := fun m ρ _ => Cert.KernelIdeal.GenP.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing in this kernel. -/
theorem preserves : Cert.preserves_Kernel_KernelIdeal := trivial

/-- Both idealized programs end with the same result array: the value the fold of the kernel's five segments leaves in its
    result buffer. -/
theorem algebraic : Cert.algebraic_KernelIdeal_ReferenceIdeal := by
  intro m ρ m' ρ' hpre hagree
  refine ⟨fun c => Cert.KernelIdeal.GenP.W5 m ρ c (Proc.devRef .tc Cert.KernelIdeal.main_v55), ?_, ?_⟩
  · exact (θ_run Cert.KernelIdeal.defs _ _).mono (fun r h c =>
      ⟨h c _ (Cert.KernelIdeal.GenP.mem_uc Cert.KernelIdeal.main_v55 (by decide)),
        (h c _ (Cert.KernelIdeal.GenP.mem_uc Cert.KernelIdeal.main_arg0 (by decide))).trans (Cert.KernelIdeal.GenP.W5_main_arg0 m ρ c),
        (h c _ (Cert.KernelIdeal.GenP.mem_uc Cert.KernelIdeal.main_arg1 (by decide))).trans (Cert.KernelIdeal.GenP.W5_main_arg1 m ρ c),
        (h c _ (Cert.KernelIdeal.GenP.mem_uc Cert.KernelIdeal.main_arg2 (by decide))).trans (Cert.KernelIdeal.GenP.W5_main_arg2 m ρ c),
        (h c _ (Cert.KernelIdeal.GenP.mem_uc Cert.KernelIdeal.main_arg3 (by decide))).trans (Cert.KernelIdeal.GenP.W5_main_arg3 m ρ c),
        (h c _ (Cert.KernelIdeal.GenP.mem_uc Cert.KernelIdeal.main_arg4 (by decide))).trans (Cert.KernelIdeal.GenP.W5_main_arg4 m ρ c),
        (h c _ (Cert.KernelIdeal.GenP.mem_uc Cert.KernelIdeal.main_arg5 (by decide))).trans (Cert.KernelIdeal.GenP.W5_main_arg5 m ρ c),
        (h c _ (Cert.KernelIdeal.GenP.mem_uc Cert.KernelIdeal.main_arg6 (by decide))).trans (Cert.KernelIdeal.GenP.W5_main_arg6 m ρ c),
        (h c _ (Cert.KernelIdeal.GenP.mem_uc Cert.KernelIdeal.main_arg7 (by decide))).trans (Cert.KernelIdeal.GenP.W5_main_arg7 m ρ c),
        (h c _ (Cert.KernelIdeal.GenP.mem_uc Cert.KernelIdeal.main_arg8 (by decide))).trans (Cert.KernelIdeal.GenP.W5_main_arg8 m ρ c),
        (h c _ (Cert.KernelIdeal.GenP.mem_uc Cert.KernelIdeal.main_arg9 (by decide))).trans (Cert.KernelIdeal.GenP.W5_main_arg9 m ρ c),
        (h c _ (Cert.KernelIdeal.GenP.mem_uc Cert.KernelIdeal.main_arg10 (by decide))).trans (Cert.KernelIdeal.GenP.W5_main_arg10 m ρ c),
        (h c _ (Cert.KernelIdeal.GenP.mem_uc Cert.KernelIdeal.main_arg11 (by decide))).trans (Cert.KernelIdeal.GenP.W5_main_arg11 m ρ c),
        (h c _ (Cert.KernelIdeal.GenP.mem_uc Cert.KernelIdeal.main_arg12 (by decide))).trans (Cert.KernelIdeal.GenP.W5_main_arg12 m ρ c),
        (h c _ (Cert.KernelIdeal.GenP.mem_uc Cert.KernelIdeal.main_arg13 (by decide))).trans (Cert.KernelIdeal.GenP.W5_main_arg13 m ρ c),
        (h c _ (Cert.KernelIdeal.GenP.mem_uc Cert.KernelIdeal.main_arg14 (by decide))).trans (Cert.KernelIdeal.GenP.W5_main_arg14 m ρ c),
        (h c _ (Cert.KernelIdeal.GenP.mem_uc Cert.KernelIdeal.main_arg15 (by decide))).trans (Cert.KernelIdeal.GenP.W5_main_arg15 m ρ c),
        (h c _ (Cert.KernelIdeal.GenP.mem_uc Cert.KernelIdeal.main_arg16 (by decide))).trans (Cert.KernelIdeal.GenP.W5_main_arg16 m ρ c),
        (h c _ (Cert.KernelIdeal.GenP.mem_uc Cert.KernelIdeal.main_arg17 (by decide))).trans (Cert.KernelIdeal.GenP.W5_main_arg17 m ρ c),
        (h c _ (Cert.KernelIdeal.GenP.mem_uc Cert.KernelIdeal.main_arg18 (by decide))).trans (Cert.KernelIdeal.GenP.W5_main_arg18 m ρ c),
        (h c _ (Cert.KernelIdeal.GenP.mem_uc Cert.KernelIdeal.main_arg19 (by decide))).trans (Cert.KernelIdeal.GenP.W5_main_arg19 m ρ c),
        (h c _ (Cert.KernelIdeal.GenP.mem_uc Cert.KernelIdeal.main_arg20 (by decide))).trans (Cert.KernelIdeal.GenP.W5_main_arg20 m ρ c)⟩)
      (Cert.KernelIdeal.KRun.run_all m ρ)
  · refine (θ_run Cert.ReferenceIdeal.defs _ _).mono (fun _ h c => ⟨(h c).1.trans ?_, (h c).2⟩)
      (Cert.ReferenceIdeal.Value.run (F := Ideal) m' ρ')
    obtain ⟨g0, g1, g2, g3, g4, g5, g6, g7, g8, g9, g10, g11, g12, g13, g14, g15, g16, g17, g18, g19, g20⟩ := hagree c
    rw [Cert.ReferenceIdeal.Closed.res_eq, g0, g1, g2, g3, g4, g5, g6, g7, g8, g9, g10, g11, g12, g13, g14, g15, g16, g17, g18, g19, g20]
    refine Eq.trans ?_ (Cert.KernelIdeal.KValue.result_closed m ρ c).symm
    exact (Cert.Bridge.out_eq _ _ _ _ _ _ _ _ _ _ _ _ _ _ _ _ _ _ _ _ _
      (Cert.PreFacts.dom_of_pre _ _ _ _ _ _ _ _ _ _ _ _ _ _ _ _ _ _ _ _ _ (hpre c))).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
